-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v78_0)) (v1 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78_0) = v0 c
          ∧ r.2.mem ((c.tc : Thread Cert.KernelIdeal.nD Cert.KernelIdeal.τ).loc Cert.KernelIdeal.main_v79) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_v90) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S64x1 : Shape := ⟨2, ![64, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg8 : FVec F S64x2 .f32) (main_arg9 : FVec F S2 .f32) (main_arg10 : FVec F S64x1 .f32) (main_arg11 : FVec F S1 .f32) (main_v33 : IVec S_ 1) : IVec S_ 1 :=
  let main_v34 : FVec F S64x2 .f32 := Host.absf main_arg8
  let main_cst_12 : FVec F S_ .f32 := constant S_ .f32 0x7F800000#32
  let main_v35 : FVec F S64x2 .f32 := broadcastInDim S64x2 ![] bcast_S_S64x2 main_cst_12
  let main_v36 : IVec S64x2 1 := cmpf .olt main_v34 main_v35
  let main_c_13 : IVec S_ 1 := constantI S_ 1 1#1
  let main_v37 : IVec S_ 1 := (fun x v => Host.reduce IntOp.andi x v reducesTo_S64x2_S_d0_1 h_S_) main_v36 main_c_13
  let main_v38 : IVec S_ 1 := andi main_v33 main_v37
  let main_v39 : FVec F S2 .f32 := Host.absf main_arg9
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  let main_v44 : FVec F S64x1 .f32 := Host.absf main_arg10
  let main_cst_16 : FVec F S_ .f32 := constant S_ .f32 0x7F800000#32
  let main_v45 : FVec F S64x1 .f32 := broadcastInDim S64x1 ![] bcast_S_S64x1 main_cst_16
  let main_v46 : IVec S64x1 1 := cmpf .olt main_v44 main_v45
  let main_c_17 : IVec S_ 1 := constantI S_ 1 1#1
  let main_v47 : IVec S_ 1 := (fun x v => Host.reduce IntOp.andi x v reducesTo_S64x1_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg5 : FVec F S64 .f32) (main_arg6 : FVec F S64x64 .f32) (main_arg7 : FVec F S64 .f32) (main_arg8 : FVec F S64x2 .f32) (main_arg9 : FVec F S2 .f32) (main_arg10 : FVec F S64x1 .f32) (main_arg11 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : IVec S2x800000 32) (main_arg2 : FVec F S128x64 .f32) (main_arg3 : FVec F S64 .f32) (main_arg4 : FVec F S64x64 .f32) (main_arg5 : FVec F S64 .f32) (main_arg6 : FVec F S64x64 .f32) (main_arg7 : FVec F S64 .f32) (main_arg8 : FVec F S64x2 .f32) (main_arg9 : FVec F S2 .f32) (main_arg10 : FVec F S64x1 .f32) (main_arg11 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S64x1 : Shape := ⟨2, ![64, 1]⟩
abbrev S1 : Shape := ⟨1, ![1]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S10000x128 : Shape := ⟨2, ![10000, 128]⟩
abbrev S10000x64 : Shape := ⟨2, ![10000, 64]⟩
abbrev S850000x64 : Shape := ⟨2, ![850000, 64]⟩
abbrev S1x64 : Shape := ⟨2, ![1, 64]⟩
abbrev S64x3 : Shape := ⟨2, ![64, 3]⟩
abbrev S3 : Shape := ⟨1, ![3]⟩
abbrev S1x3 : Shape := ⟨2, ![1, 3]⟩
abbrev S50000x2 : Shape := ⟨2, ![50000, 2]⟩
abbrev S50000x1 : Shape := ⟨2, ![50000, 1]⟩
abbrev S10000x2 : Shape := ⟨2, ![10000, 2]⟩
abbrev S10000x1 : Shape := ⟨2, ![10000, 1]⟩
abbrev S10000x3 : Shape := ⟨2, ![10000, 3]⟩

abbrev nBuf : Space → Nat
  | .hbm => 108
  | .vmem => 38
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x2, .f32⟩
  | .hbm, ⟨9, _⟩ => ⟨S2, .f32⟩
  | .hbm, ⟨10, _⟩ => ⟨S64x1, .f32⟩
  | .hbm, ⟨11, _⟩ => ⟨S1, .f32⟩
  | .hbm, ⟨12, _⟩ => ⟨S50000, .i32⟩
  | .hbm, ⟨13, _⟩ => ⟨S1x800000, .i32⟩
  | .hbm, ⟨14, _⟩ => ⟨S800000, .i32⟩
  | .hbm, ⟨15, _⟩ => ⟨S850000, .i32⟩
  | .hbm, ⟨16, _⟩ => ⟨S1x800000, .i32⟩
  | .hbm, ⟨17, _⟩ => ⟨S800000, .i32⟩
  | .hbm, ⟨18, _⟩ => ⟨S850000, .i32⟩
  | .hbm, ⟨19, _⟩ => ⟨S_, .f32⟩
  | .hbm, ⟨20, _⟩ => ⟨S850000, .f32⟩
  | .hbm, ⟨21, _⟩ => ⟨S_, .f32⟩
  | .hbm, ⟨22, _⟩ => ⟨S50000, .f32⟩
  | .hbm, ⟨23, _⟩ => ⟨S850000x1, .i32⟩
  | .hbm, ⟨24, _⟩ => ⟨S50000, .f32⟩
  | .hbm, ⟨25, _⟩ => ⟨S50000, .f32⟩
  | .hbm, ⟨26, _⟩ => ⟨S_, .i32⟩
  | .hbm, ⟨27, _⟩ => ⟨S850000, .i32⟩
  | .hbm, ⟨28, _⟩ => ⟨S850000, .i1⟩
  | .hbm, ⟨29, _⟩ => ⟨S_, .i32⟩
  | .hbm, ⟨30, _⟩ => ⟨S850000, .i32⟩
  | .hbm, ⟨31, _⟩ => ⟨S850000, .i32⟩
  | .hbm, ⟨32, _⟩ => ⟨S850000, .i32⟩
  | .hbm, ⟨33, _⟩ => ⟨S850000x1, .i32⟩
  | .hbm, ⟨34, _⟩ => ⟨S850000, .f32⟩
  | .hbm, ⟨35, _⟩ => ⟨S_, .i32⟩
  | .hbm, ⟨36, _⟩ => ⟨S850000, .i32⟩
  | .hbm, ⟨37, _⟩ => ⟨S850000, .i1⟩
  | .hbm, ⟨38, _⟩ => ⟨S_, .i32⟩
  | .hbm, ⟨39, _⟩ => ⟨S850000, .i32⟩
  | .hbm, ⟨40, _⟩ => ⟨S850000, .i32⟩
  | .hbm, ⟨41, _⟩ => ⟨S850000, .i32⟩
  | .hbm, ⟨42, _⟩ => ⟨S850000x1, .i32⟩
  | .hbm, ⟨43, _⟩ => ⟨S850000, .f32⟩
  | .hbm, ⟨44, _⟩ => ⟨S850000, .f32⟩
  | .hbm, ⟨45, _⟩ => ⟨S50000x64, .f32⟩
  | .hbm, ⟨46, _⟩ => ⟨S_, .i32⟩
  | .hbm, ⟨47, _⟩ => ⟨S850000, .i32⟩
  | .hbm, ⟨48, _⟩ => ⟨S850000, .i1⟩
  | .hbm, ⟨49, _⟩ => ⟨S_, .i32⟩
  | .hbm, ⟨50, _⟩ => ⟨S850000, .i32⟩
  | .hbm, ⟨51, _⟩ => ⟨S850000, .i32⟩
  | .hbm, ⟨52, _⟩ => ⟨S850000, .i32⟩
  | .hbm, ⟨53, _⟩ => ⟨S850000x1, .i32⟩
  | .hbm, ⟨54, _⟩ => ⟨S850000x64, .f32⟩
  | .hbm, ⟨55, _⟩ => ⟨S850000x1, .f32⟩
  | .hbm, ⟨56, _⟩ => ⟨S850000x64, .f32⟩
  | .hbm, ⟨57, _⟩ => ⟨S850000x64, .f32⟩
  | .hbm, ⟨58, _⟩ => ⟨S_, .f32⟩
  | .hbm, ⟨59, _⟩ => ⟨S50000x64, .f32⟩
  | .hbm, ⟨60, _⟩ => ⟨S850000x1, .i32⟩
  | .hbm, ⟨61, _⟩ => ⟨S50000x64, .f32⟩
  | .hbm, ⟨62, _⟩ => ⟨S1x64, .f32⟩
  | .hbm, ⟨63, _⟩ => ⟨S50000x64, .f32⟩
  | .hbm, ⟨64, _⟩ => ⟨S50000x64, .f32⟩
  | .hbm, ⟨65, _⟩ => ⟨S_, .i32⟩
  | .hbm, ⟨66, _⟩ => ⟨S850000, .i32⟩
  | .hbm, ⟨67, _⟩ => ⟨S850000, .i1⟩
  | .hbm, ⟨68, _⟩ => ⟨S_, .i32⟩
  | .hbm, ⟨69, _⟩ => ⟨S850000, .i32⟩
  | .hbm, ⟨70, _⟩ => ⟨S850000, .i32⟩
  | .hbm, ⟨71, _⟩ => ⟨S850000, .i32⟩
  | .hbm, ⟨72, _⟩ => ⟨S850000x1, .i32⟩
  | .hbm, ⟨73, _⟩ => ⟨S850000x64, .f32⟩
  | .hbm, ⟨74, _⟩ => ⟨S850000x1, .f32⟩
  | .hbm, ⟨75, _⟩ => ⟨S850000x64, .f32⟩
  | .hbm, ⟨76, _⟩ => ⟨S850000x64, .f32⟩
  | .hbm, ⟨77, _⟩ => ⟨S_, .f32⟩
  | .hbm, ⟨78, _⟩ => ⟨S50000x64, .f32⟩
  | .hbm, ⟨79, _⟩ => ⟨S850000x1, .i32⟩
  | .hbm, ⟨80, _⟩ => ⟨S50000x64, .f32⟩
  | .hbm, ⟨81, _⟩ => ⟨S1x64, .f32⟩
  | .hbm, ⟨82, _⟩ => ⟨S50000x64, .f32⟩
  | .hbm, ⟨83, _⟩ => ⟨S50000x64, .f32⟩
  | .hbm, ⟨84, _⟩ => ⟨S_, .i32⟩
  | .hbm, ⟨85, _⟩ => ⟨S850000, .i32⟩
  | .hbm, ⟨86, _⟩ => ⟨S850000, .i1⟩
  | .hbm, ⟨87, _⟩ => ⟨S_, .i32⟩
  | .hbm, ⟨88, _⟩ => ⟨S850000, .i32⟩
  | .hbm, ⟨89, _⟩ => ⟨S850000, .i32⟩
  | .hbm, ⟨90, _⟩ => ⟨S850000, .i32⟩
  | .hbm, ⟨91, _⟩ => ⟨S850000x1, .i32⟩
  | .hbm, ⟨92, _⟩ => ⟨S850000x64, .f32⟩
  | .hbm, ⟨93, _⟩ => ⟨S850000x1, .f32⟩
  | .hbm, ⟨94, _⟩ => ⟨S850000x64, .f32⟩
  | .hbm, ⟨95, _⟩ => ⟨S850000x64, .f32⟩
  | .hbm, ⟨96, _⟩ => ⟨S_, .f32⟩
  | .hbm, ⟨97, _⟩ => ⟨S50000x64, .f32⟩
  | .hbm, ⟨98, _⟩ => ⟨S850000x1, .i32⟩
  | .hbm, ⟨99, _⟩ => ⟨S50000x64, .f32⟩
  | .hbm, ⟨100, _⟩ => ⟨S1x64, .f32⟩
  | .hbm, ⟨101, _⟩ => ⟨S50000x64, .f32⟩
  | .hbm, ⟨102, _⟩ => ⟨S64x3, .f32⟩
  | .hbm, ⟨103, _⟩ => ⟨S3, .f32⟩
  | .hbm, ⟨104, _⟩ => ⟨S1x3, .f32⟩
  | .hbm, ⟨105, _⟩ => ⟨S50000x2, .f32⟩
  | .hbm, ⟨106, _⟩ => ⟨S50000x1, .f32⟩
  | .hbm, ⟨107, _⟩ => ⟨S50000, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S64x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S10000x64, .f32⟩
  | .local _ .vmem, ⟨27, _⟩ => ⟨S1x64, .f32⟩
  | .local _ .vmem, ⟨28, _⟩ => ⟨S10000x64, .f32⟩
  | .local _ .vmem, ⟨29, _⟩ => ⟨S10000x64, .f32⟩
  | .local _ .vmem, ⟨30, _⟩ => ⟨S10000x64, .f32⟩
  | .local _ .vmem, ⟨31, _⟩ => ⟨S10000x64, .f32⟩
  | .local _ .vmem, ⟨32, _⟩ => ⟨S64x3, .f32⟩
  | .local _ .vmem, ⟨33, _⟩ => ⟨S1x3, .f32⟩
  | .local _ .vmem, ⟨34, _⟩ => ⟨S10000x2, .f32⟩
  | .local _ .vmem, ⟨35, _⟩ => ⟨S10000x2, .f32⟩
  | .local _ .vmem, ⟨36, _⟩ => ⟨S10000x1, .f32⟩
  | .local _ .vmem, ⟨37, _⟩ => ⟨S10000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_2 : Ref sig .tc := ⟨.hbm, 35, rfl⟩
abbrev main_v19 : Ref sig .tc := ⟨.hbm, 36, rfl⟩
abbrev main_v20 : Ref sig .tc := ⟨.hbm, 37, rfl⟩
abbrev main_c_3 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_4 : Ref sig .tc := ⟨.hbm, 46, rfl⟩
abbrev main_v28 : Ref sig .tc := ⟨.hbm, 47, rfl⟩
abbrev main_v29 : Ref sig .tc := ⟨.hbm, 48, rfl⟩
abbrev main_c_5 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_6 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_c_7 : Ref sig .tc := ⟨.hbm, 65, rfl⟩
abbrev main_v44 : Ref sig .tc := ⟨.hbm, 66, rfl⟩
abbrev main_v45 : Ref sig .tc := ⟨.hbm, 67, rfl⟩
abbrev main_c_8 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_9 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_c_10 : Ref sig .tc := ⟨.hbm, 84, rfl⟩
abbrev main_v60 : Ref sig .tc := ⟨.hbm, 85, rfl⟩
abbrev main_v61 : Ref sig .tc := ⟨.hbm, 86, rfl⟩
abbrev main_c_11 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst_12 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78_0 : Ref sig .tc := ⟨.hbm, 105, rfl⟩
abbrev main_v78_1 : Ref sig .tc := ⟨.hbm, 106, rfl⟩
abbrev main_v79 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg3_0 : Ref sig .tc := ⟨.vmem, 34, rfl⟩
abbrev cc6_stg3_1 : Ref sig .tc := ⟨.vmem, 35, rfl⟩
abbrev cc6_stg4_0 : Ref sig .tc := ⟨.vmem, 36, rfl⟩
abbrev cc6_stg4_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem3_0 : DmaSem sig := 34
abbrev cc6_sem3_1 : DmaSem sig := 35
abbrev cc6_sem4_0 : DmaSem sig := 36
abbrev cc6_sem4_1 : DmaSem sig := 37

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![5], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x3 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x3 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S10000x2 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S10000x1 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  concatenates_S64x2_S64x1_S64x3_d1 : Shape.Concatenates [S64x2, S64x1] S64x3 1
  concatenates_S2_S1_S3_d0 : Shape.Concatenates [S2, S1] S3 0
  shapeCasts_S3_S1x3 : S3.ShapeCasts S1x3
  inb_S64x3_S64x3_0_0 : ∀ a, (![0, 0] : Fin 2 → Nat) a + S64x3.size a ≤ S64x3.size a
  h_S64x3 : 0 < S64x3.numel
  shapeCasts_S64x3_S64x3 : S64x3.ShapeCasts S64x3
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S10000x3 : S1x3.Broadcasts S10000x3
  slices_S10000x3_o0_0_S10000x2 : S10000x3.Slices ![0, 0] S10000x2
  inb_S10000x2_S10000x2_0_0 : ∀ a, (![0, 0] : Fin 2 → Nat) a + S10000x2.size a ≤ S10000x2.size a
  h_S10000x2 : 0 < S10000x2.numel
  slices_S10000x3_o0_2_S10000x1 : S10000x3.Slices ![0, 2] S10000x1
  inb_S10000x1_S10000x1_0_0 : ∀ a, (![0, 0] : Fin 2 → Nat) a + S10000x1.size a ≤ S10000x1.size a
  h_S10000x1 : 0 < S10000x1.numel
  shapeCasts_S50000x1_S50000 : S50000x1.ShapeCasts S50000
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S10000x128_S128x64_S10000x64_1_0_0_1_n_n_wf : DotDims.WF S10000x128 S128x64 S10000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S10000x64_S64x64_S10000x64_1_0_0_1_n_n_wf : DotDims.WF S10000x64 S64x64 S10000x64 [1] [0] [0] [1] [] []
  dot_S10000x64_S64x3_S10000x3_1_0_0_1_n_n_wf : DotDims.WF S10000x64 S64x3 S10000x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S50000x64.size a
  hwx0_2 : ∀ i : grid0.Coords, EltTy.bits .f32 = 32 ∨ (Rect.block (s := S50000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S50000x64.size a
  hwx1_0 : ∀ i : grid1.Coords, EltTy.bits .f32 = 32 ∨ (Rect.block (s := S50000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S50000x64.size a
  hwx1_2 : ∀ i : grid1.Coords, EltTy.bits .f32 = 32 ∨ (Rect.block (s := S50000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S50000x64.size a
  hwx2_0 : ∀ i : grid2.Coords, EltTy.bits .f32 = 32 ∨ (Rect.block (s := S50000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S50000x64.size a
  hwx2_2 : ∀ i : grid2.Coords, EltTy.bits .f32 = 32 ∨ (Rect.block (s := S50000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S50000x64.size a
  hwx3_0 : ∀ i : grid3.Coords, EltTy.bits .f32 = 32 ∨ (Rect.block (s := S50000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S50000x64.size a
  hwx3_2 : ∀ i : grid3.Coords, EltTy.bits .f32 = 32 ∨ (Rect.block (s := S50000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S50000x64.size a
  hwx4_0 : ∀ i : grid4.Coords, EltTy.bits .f32 = 32 ∨ (Rect.block (s := S50000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S50000x64.size a
  hwx4_2 : ∀ i : grid4.Coords, EltTy.bits .f32 = 32 ∨ (Rect.block (s := S50000x64) S10000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S50000x64.size a
  hwx5_0 : ∀ i : grid5.Coords, EltTy.bits .f32 = 32 ∨ (Rect.block (s := S50000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x64.size a ≤ S50000x64.size a
  hwx5_2 : ∀ i : grid5.Coords, EltTy.bits .f32 = 32 ∨ (Rect.block (s := S50000x64) S10000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S50000x64.size a
  hwx6_0 : ∀ i : grid6.Coords, EltTy.bits .f32 = 32 ∨ (Rect.block (s := S50000x64) S10000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x3.size a ≤ S64x3.size a
  hwx6_1 : ∀ i : grid6.Coords, EltTy.bits .f32 = 32 ∨ (Rect.block (s := S64x3) S64x3.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x3.size a ≤ S1x3.size a
  hwx6_2 : ∀ i : grid6.Coords, EltTy.bits .f32 = 32 ∨ (Rect.block (s := S1x3) S1x3.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S10000x2.size a ≤ S50000x2.size a
  hwx6_3 : ∀ i : grid6.Coords, EltTy.bits .f32 = 32 ∨ (Rect.block (s := S50000x2) S10000x2.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S10000x1.size a ≤ S50000x1.size a
  hwx6_4 : ∀ i : grid6.Coords, EltTy.bits .f32 = 32 ∨ (Rect.block (s := S50000x1) S10000x1.size (cc6_transform_4 i) (hinb6_4 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x3_S10000x3_1_0_0_1_n_n : DotDims S10000x64 S64x3 S10000x3 where
  lhsContracting := [1]
  rhsContracting := [0]
  lhsNonContracting := [0]
  rhsNonContracting := [1]
  lhsBatch := []
  rhsBatch := []
  wf := dot_S10000x64_S64x3_S10000x3_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v42) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v56) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v58) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v58) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v59) S10000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v72) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v73) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v74) S10000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v74) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v75) S64x3.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v77) S1x3.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v78_0) S10000x2.size cc6_transform_3 reads6_3 true false 2 stage6_3 sem6_3
    hrank6 hreads6_3 hinb6_3 nbuf6_3 (Memref.isWhole_whole _) hwx6_3 hstage6_3

abbrev win6_4 : Pipeline.Window sig grid6 :=
  Pipeline.Window.ofSpec (Memref.whole main_v78_1) S10000x1.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S64x1 : Shape := ⟨2, ![64, 1]⟩
abbrev S1 : Shape := ⟨1, ![1]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S850000x64 : Shape := ⟨2, ![850000, 64]⟩
abbrev S1x64 : Shape := ⟨2, ![1, 64]⟩
abbrev S50000x2 : Shape := ⟨2, ![50000, 2]⟩
abbrev S1x2 : Shape := ⟨2, ![1, 2]⟩
abbrev S50000x1 : Shape := ⟨2, ![50000, 1]⟩
abbrev S1x1 : Shape := ⟨2, ![1, 1]⟩

abbrev nBuf : Space → Nat
  | .hbm => 137
  | .vmem => 0
  | .smem => 0
  | _ => 0

abbrev hbmTy0_0 (i : Nat) : BufTy := match i % 128 with
  | 0 => ⟨S50000x128, .f32⟩
  | 1 => ⟨S2x800000, .i32⟩
  | 2 => ⟨S128x64, .f32⟩
  | 3 => ⟨S64, .f32⟩
  | 4 => ⟨S64x64, .f32⟩
  | 5 => ⟨S64, .f32⟩
  | 6 => ⟨S64x64, .f32⟩
  | 7 => ⟨S64, .f32⟩
  | 8 => ⟨S64x2, .f32⟩
  | 9 => ⟨S2, .f32⟩
  | 10 => ⟨S64x1, .f32⟩
  | 11 => ⟨S1, .f32⟩
  | 12 => ⟨S50000, .i32⟩
  | 13 => ⟨S1x800000, .i32⟩
  | 14 => ⟨S800000, .i32⟩
  | 15 => ⟨S850000, .i32⟩
  | 16 => ⟨S1x800000, .i32⟩
  | 17 => ⟨S800000, .i32⟩
  | 18 => ⟨S850000, .i32⟩
  | 19 => ⟨S_, .f32⟩
  | 20 => ⟨S850000, .f32⟩
  | 21 => ⟨S_, .f32⟩
  | 22 => ⟨S50000, .f32⟩
  | 23 => ⟨S850000x1, .i32⟩
  | 24 => ⟨S50000, .f32⟩
  | 25 => ⟨S50000, .f32⟩
  | 26 => ⟨S_, .i32⟩
  | 27 => ⟨S850000, .i32⟩
  | 28 => ⟨S850000, .i1⟩
  | 29 => ⟨S_, .i32⟩
  | 30 => ⟨S850000, .i32⟩
  | 31 => ⟨S850000, .i32⟩
  | 32 => ⟨S850000, .i32⟩
  | 33 => ⟨S850000x1, .i32⟩
  | 34 => ⟨S850000, .f32⟩
  | 35 => ⟨S_, .i32⟩
  | 36 => ⟨S850000, .i32⟩
  | 37 => ⟨S850000, .i1⟩
  | 38 => ⟨S_, .i32⟩
  | 39 => ⟨S850000, .i32⟩
  | 40 => ⟨S850000, .i32⟩
  | 41 => ⟨S850000, .i32⟩
  | 42 => ⟨S850000x1, .i32⟩
  | 43 => ⟨S850000, .f32⟩
  | 44 => ⟨S850000, .f32⟩
  | 45 => ⟨S50000x64, .f32⟩
  | 46 => ⟨S_, .i32⟩
  | 47 => ⟨S850000, .i32⟩
  | 48 => ⟨S850000, .i1⟩
  | 49 => ⟨S_, .i32⟩
  | 50 => ⟨S850000, .i32⟩
  | 51 => ⟨S850000, .i32⟩
  | 52 => ⟨S850000, .i32⟩
  | 53 => ⟨S850000x1, .i32⟩
  | 54 => ⟨S850000x64, .f32⟩
  | 55 => ⟨S850000x1, .f32⟩
  | 56 => ⟨S850000x64, .f32⟩
  | 57 => ⟨S850000x64, .f32⟩
  | 58 => ⟨S_, .f32⟩
  | 59 => ⟨S50000x64, .f32⟩
  | 60 => ⟨S850000x1, .i32⟩
  | 61 => ⟨S50000x64, .f32⟩
  | 62 => ⟨S1x64, .f32⟩
  | 63 => ⟨S50000x64, .f32⟩
  | 64 => ⟨S50000x64, .f32⟩
  | 65 => ⟨S_, .f32⟩
  | 66 => ⟨S50000x64, .f32⟩
  | 67 => ⟨S50000x64, .f32⟩
  | 68 => ⟨S50000x64, .f32⟩
  | 69 => ⟨S_, .i32⟩
  | 70 => ⟨S850000, .i32⟩
  | 71 => ⟨S850000, .i1⟩
  | 72 => ⟨S_, .i32⟩
  | 73 => ⟨S850000, .i32⟩
  | 74 => ⟨S850000, .i32⟩
  | 75 => ⟨S850000, .i32⟩
  | 76 => ⟨S850000x1, .i32⟩
  | 77 => ⟨S850000x64, .f32⟩
  | 78 => ⟨S850000x1, .f32⟩
  | 79 => ⟨S850000x64, .f32⟩
  | 80 => ⟨S850000x64, .f32⟩
  | 81 => ⟨S_, .f32⟩
  | 82 => ⟨S50000x64, .f32⟩
  | 83 => ⟨S850000x1, .i32⟩
  | 84 => ⟨S50000x64, .f32⟩
  | 85 => ⟨S1x64, .f32⟩
  | 86 => ⟨S50000x64, .f32⟩
  | 87 => ⟨S50000x64, .f32⟩
  | 88 => ⟨S_, .f32⟩
  | 89 => ⟨S50000x64, .f32⟩
  | 90 => ⟨S50000x64, .f32⟩
  | 91 => ⟨S50000x64, .f32⟩
  | 92 => ⟨S_, .i32⟩
  | 93 => ⟨S850000, .i32⟩
  | 94 => ⟨S850000, .i1⟩
  | 95 => ⟨S_, .i32⟩
  | 96 => ⟨S850000, .i32⟩
  | 97 => ⟨S850000, .i32⟩
  | 98 => ⟨S850000, .i32⟩
  | 99 => ⟨S850000x1, .i32⟩
  | 100 => ⟨S850000x64, .f32⟩
  | 101 => ⟨S850000x1, .f32⟩
  | 102 => ⟨S850000x64, .f32⟩
  | 103 => ⟨S850000x64, .f32⟩
  | 104 => ⟨S_, .f32⟩
  | 105 => ⟨S50000x64, .f32⟩
  | 106 => ⟨S850000x1, .i32⟩
  | 107 => ⟨S50000x64, .f32⟩
  | 108 => ⟨S1x64, .f32⟩
  | 109 => ⟨S50000x64, .f32⟩
  | 110 => ⟨S50000x64, .f32⟩
  | 111 => ⟨S_, .f32⟩
  | 112 => ⟨S50000x64, .f32⟩
  | 113 => ⟨S50000x64, .f32⟩
  | 114 => ⟨S50000x2, .f32⟩
  | 115 => ⟨S1x2, .f32⟩
  | 116 => ⟨S50000x2, .f32⟩
  | 117 => ⟨S50000x2, .f32⟩
  | 118 => ⟨S50000x1, .f32⟩
  | 119 => ⟨S1x1, .f32⟩
  | 120 => ⟨S50000x1, .f32⟩
  | 121 => ⟨S50000x1, .f32⟩
  | 122 => ⟨S_, .f32⟩
  | 123 => ⟨S50000x1, .f32⟩
  | 124 => ⟨S50000x1, .f32⟩
  | 125 => ⟨S50000x1, .f32⟩
  | 126 => ⟨S50000x1, .f32⟩
  | 127 => ⟨S50000x1, .i1⟩
  | _ => ⟨S50000x128, .f32⟩

abbrev hbmTy0_1 (i : Nat) : BufTy := match i % 128 with
  | 0 => ⟨S50000x1, .f32⟩
  | 1 => ⟨S50000x1, .f32⟩
  | 2 => ⟨S50000x1, .f32⟩
  | 3 => ⟨S50000x1, .f32⟩
  | 4 => ⟨S50000x1, .f32⟩
  | 5 => ⟨S50000x1, .f32⟩
  | 6 => ⟨S50000x1, .f32⟩
  | 7 => ⟨S50000x1, .f32⟩
  | 8 => ⟨S50000, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_2 : Ref sig .tc := ⟨.hbm, 35, rfl⟩
abbrev main_v19 : Ref sig .tc := ⟨.hbm, 36, rfl⟩
abbrev main_v20 : Ref sig .tc := ⟨.hbm, 37, rfl⟩
abbrev main_c_3 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_4 : Ref sig .tc := ⟨.hbm, 46, rfl⟩
abbrev main_v28 : Ref sig .tc := ⟨.hbm, 47, rfl⟩
abbrev main_v29 : Ref sig .tc := ⟨.hbm, 48, rfl⟩
abbrev main_c_5 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_6 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_call0_cst : Ref sig .tc := ⟨.hbm, 65, rfl⟩
abbrev main_call0_v0 : Ref sig .tc := ⟨.hbm, 66, rfl⟩
abbrev main_v44 : Ref sig .tc := ⟨.hbm, 67, rfl⟩
abbrev main_v45 : Ref sig .tc := ⟨.hbm, 68, rfl⟩
abbrev main_c_7 : Ref sig .tc := ⟨.hbm, 69, rfl⟩
abbrev main_v46 : Ref sig .tc := ⟨.hbm, 70, rfl⟩
abbrev main_v47 : Ref sig .tc := ⟨.hbm, 71, rfl⟩
abbrev main_c_8 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_9 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_call1_cst : Ref sig .tc := ⟨.hbm, 88, rfl⟩
abbrev main_call1_v0 : Ref sig .tc := ⟨.hbm, 89, rfl⟩
abbrev main_v62 : Ref sig .tc := ⟨.hbm, 90, rfl⟩
abbrev main_v63 : Ref sig .tc := ⟨.hbm, 91, rfl⟩
abbrev main_c_10 : Ref sig .tc := ⟨.hbm, 92, rfl⟩
abbrev main_v64 : Ref sig .tc := ⟨.hbm, 93, rfl⟩
abbrev main_v65 : Ref sig .tc := ⟨.hbm, 94, rfl⟩
abbrev main_c_11 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_12 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_call2_cst : Ref sig .tc := ⟨.hbm, 111, rfl⟩
abbrev main_call2_v0 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_call3_cst : Ref sig .tc := ⟨.hbm, 122, rfl⟩
abbrev main_call3_v0 : Ref sig .tc := ⟨.hbm, 123, rfl⟩
abbrev main_call3_v1 : Ref sig .tc := ⟨.hbm, 124, rfl⟩
abbrev main_call3_v2 : Ref sig .tc := ⟨.hbm, 125, rfl⟩
abbrev main_call3_v3 : Ref sig .tc := ⟨.hbm, 126, rfl⟩
abbrev main_call3_v4 : Ref sig .tc := ⟨.hbm, 127, rfl⟩
abbrev main_call3_v5 : Ref sig .tc := ⟨.hbm, 128, rfl⟩
abbrev main_call3_v6 : Ref sig .tc := ⟨.hbm, 129, rfl⟩
abbrev main_call3_v7 : Ref sig .tc := ⟨.hbm, 130, rfl⟩
abbrev main_call3_v8 : Ref sig .tc := ⟨.hbm, 131, rfl⟩
abbrev main_call3_v9 : Ref sig .tc := ⟨.hbm, 132, rfl⟩
abbrev main_call3_v10 : Ref sig .tc := ⟨.hbm, 133, rfl⟩
abbrev main_call3_v11 : Ref sig .tc := ⟨.hbm, 134, rfl⟩
abbrev main_v89 : Ref sig .tc := ⟨.hbm, 135, rfl⟩
abbrev main_v90 : Ref sig .tc := ⟨.hbm, 136, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  bcast_S_S50000x1 : S_.BroadcastsInDim S50000x1 (![] : Fin 0 → Fin S50000x1.rank)
  shapeCasts_S50000x1_S50000 : S50000x1.ShapeCasts S50000
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x64_S50000x64_1_0_0_1_n_n_wf : DotDims.WF S50000x64 S64x64 S50000x64 [1] [0] [0] [1] [] []
  dot_S50000x64_S64x2_S50000x2_1_0_0_1_n_n_wf : DotDims.WF S50000x64 S64x2 S50000x2 [1] [0] [0] [1] [] []
  dot_S50000x64_S64x1_S50000x1_1_0_0_1_n_n_wf : DotDims.WF S50000x64 S64x1 S50000x1 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x2_S50000x2_1_0_0_1_n_n : DotDims S50000x64 S64x2 S50000x2 where
  lhsContracting := [1]
  rhsContracting := [0]
  lhsNonContracting := [0]
  rhsNonContracting := [1]
  lhsBatch := []
  rhsBatch := []
  wf := dot_S50000x64_S64x2_S50000x2_1_0_0_1_n_n_wf
def dot_S50000x64_S64x1_S50000x1_1_0_0_1_n_n : DotDims S50000x64 S64x1 S50000x1 where
  lhsContracting := [1]
  rhsContracting := [0]
  lhsNonContracting := [0]
  rhsNonContracting := [1]
  lhsBatch := []
  rhsBatch := []
  wf := dot_S50000x64_S64x1_S50000x1_1_0_0_1_n_n_wf

class Facts : Prop extends Facts₀ where

variable [Facts]
-- ==== Proof.KernelRun.lean ====
/-
  The kernel program's run with its two results named.

  Every weakly fair execution of the program ends, without a fault, in a state where each buffer the host can see holds
  what the fold of the program's segments leaves there: a host stretch applies its operations, a launch leaves in each
  of its arrays what its write-backs leave. Read at the two result buffers this names the results; read at the
  arguments it says they are unchanged.
-/
import proofs.«179234_j19267223289970_1_alg».proof.Proof.Gen.KernelIdeal.Frame

set_option maxRecDepth 16384

noncomputable section

namespace Cert.KernelIdeal.Results

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the two result buffers at the fold's last contents and the arguments as launched. -/
theorem run_values : θ_run defs (onTc (τ := τ) (main (F := F))) ⟨m, fun _ => 0, ρ⟩ (fun r => ∀ c : Dev nD,
      r.2.mem ((c.tc : Thread nD τ).loc main_v78_0) = W13 m ρ c (Proc.devRef .tc main_v78_0)
      ∧ r.2.mem ((c.tc : Thread nD τ).loc main_v79) = W13 m ρ c (Proc.devRef .tc main_v79)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v78_0 (by decide)),
       h c _ (mem_uc main_v79 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c),
       (h c _ (mem_uc main_arg11 (by decide))).trans (W13_main_arg11 m ρ c)⟩)

end Cert.KernelIdeal.Results

end
-- ==== Proof.Carried.lean ====
/-
  What each boundary between the program's segments still holds: the argument arrays as launched, and the three edge
  arrays computed once before the first launch (the source indices, the target indices and the per-edge
  normalisation).

  The program is thirteen segments: host stretches and launches in turn. A host stretch changes only the buffers its
  operations write; a launch changes only its own arrays. None of them writes an argument, the two index arrays or the
  normalisation after the first stretch has computed them, so each of these reads the same at every later boundary
  where it is still needed. The edge arrays are the reference program's own terms of the edge list, since the first
  stretch is, operation for operation, the reference's opening.
-/
import proofs.«179234_j19267223289970_1_alg».proof.Proof.Gen.KernelIdeal.Frame
import proofs.«179234_j19267223289970_1_alg».proof.Proof.Gen.ReferenceIdeal.Read

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen
open Cert.ReferenceIdeal.Read

variable (m : (ℓ : Loc nD τ sig) → Buf (Elt Ideal) ℓ) (ρ : Dev nD → PrngReg) (c : Dev nD)

/-- A buffer that none of a stretch's operations writes reads after the stretch as before it. -/
local macro "skip_host " ops:ident : tactic => `(tactic| (
  refine StableHlo.after_of_forall_not_mem _ _ (List.forall_iff_forall_mem.mp ?_)
  simp only [$ops:ident, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ### What boundary 1 still holds of the launch contents and of the edge arrays -/

theorem w1_arg0 : W1 m ρ c (Proc.devRef .tc main_arg0) = (m ((c : Thread nD τ).loc main_arg0)) := by
  refine Eq.trans (b := W0 m ρ c (Proc.devRef .tc main_arg0)) ?_ rfl
  skip_host hostOps0
theorem w1_arg2 : W1 m ρ c (Proc.devRef .tc main_arg2) = (m ((c : Thread nD τ).loc main_arg2)) := by
  refine Eq.trans (b := W0 m ρ c (Proc.devRef .tc main_arg2)) ?_ rfl
  skip_host hostOps0
theorem w1_arg3 : W1 m ρ c (Proc.devRef .tc main_arg3) = (m ((c : Thread nD τ).loc main_arg3)) := by
  refine Eq.trans (b := W0 m ρ c (Proc.devRef .tc main_arg3)) ?_ rfl
  skip_host hostOps0
theorem w1_arg4 : W1 m ρ c (Proc.devRef .tc main_arg4) = (m ((c : Thread nD τ).loc main_arg4)) := by
  refine Eq.trans (b := W0 m ρ c (Proc.devRef .tc main_arg4)) ?_ rfl
  skip_host hostOps0
theorem w1_arg5 : W1 m ρ c (Proc.devRef .tc main_arg5) = (m ((c : Thread nD τ).loc main_arg5)) := by
  refine Eq.trans (b := W0 m ρ c (Proc.devRef .tc main_arg5)) ?_ rfl
  skip_host hostOps0
theorem w1_arg6 : W1 m ρ c (Proc.devRef .tc main_arg6) = (m ((c : Thread nD τ).loc main_arg6)) := by
  refine Eq.trans (b := W0 m ρ c (Proc.devRef .tc main_arg6)) ?_ rfl
  skip_host hostOps0
theorem w1_arg7 : W1 m ρ c (Proc.devRef .tc main_arg7) = (m ((c : Thread nD τ).loc main_arg7)) := by
  refine Eq.trans (b := W0 m ρ c (Proc.devRef .tc main_arg7)) ?_ rfl
  skip_host hostOps0
theorem w1_arg8 : W1 m ρ c (Proc.devRef .tc main_arg8) = (m ((c : Thread nD τ).loc main_arg8)) := by
  refine Eq.trans (b := W0 m ρ c (Proc.devRef .tc main_arg8)) ?_ rfl
  skip_host hostOps0
theorem w1_arg9 : W1 m ρ c (Proc.devRef .tc main_arg9) = (m ((c : Thread nD τ).loc main_arg9)) := by
  refine Eq.trans (b := W0 m ρ c (Proc.devRef .tc main_arg9)) ?_ rfl
  skip_host hostOps0
theorem w1_arg10 : W1 m ρ c (Proc.devRef .tc main_arg10) = (m ((c : Thread nD τ).loc main_arg10)) := by
  refine Eq.trans (b := W0 m ρ c (Proc.devRef .tc main_arg10)) ?_ rfl
  skip_host hostOps0
theorem w1_arg11 : W1 m ρ c (Proc.devRef .tc main_arg11) = (m ((c : Thread nD τ).loc main_arg11)) := by
  refine Eq.trans (b := W0 m ρ c (Proc.devRef .tc main_arg11)) ?_ rfl
  skip_host hostOps0
theorem w1_v3 : W1 m ρ c (Proc.devRef .tc main_v3) = (val_main_v3 (F := Ideal) (m ((c : Thread nD τ).loc main_arg1))) := by
  show StableHlo.after hostOps0 (W0 m ρ c) (Proc.devRef .tc main_v3) = _
  after_results_simp <;> rfl
theorem w1_v6 : W1 m ρ c (Proc.devRef .tc main_v6) = (val_main_v6 (F := Ideal) (m ((c : Thread nD τ).loc main_arg1))) := by
  show StableHlo.after hostOps0 (W0 m ρ c) (Proc.devRef .tc main_v6) = _
  after_results_simp <;> rfl
theorem w1_v26 : W1 m ρ c (Proc.devRef .tc main_v26) = (val_main_v26 (F := Ideal) (m ((c : Thread nD τ).loc main_arg1))) := by
  show StableHlo.after hostOps0 (W0 m ρ c) (Proc.devRef .tc main_v26) = _
  after_results_simp <;> rfl

/-! ### What boundary 2 still holds of the launch contents and of the edge arrays -/

theorem w2_v3 : W2 m ρ c (Proc.devRef .tc main_v3) = (val_main_v3 (F := Ideal) (m ((c : Thread nD τ).loc main_arg1))) :=
  (W2_of_ne m ρ c main_v3 (by decide)).trans (w1_v3 m ρ c)
theorem w2_v6 : W2 m ρ c (Proc.devRef .tc main_v6) = (val_main_v6 (F := Ideal) (m ((c : Thread nD τ).loc main_arg1))) :=
  (W2_of_ne m ρ c main_v6 (by decide)).trans (w1_v6 m ρ c)
theorem w2_v26 : W2 m ρ c (Proc.devRef .tc main_v26) = (val_main_v26 (F := Ideal) (m ((c : Thread nD τ).loc main_arg1))) :=
  (W2_of_ne m ρ c main_v26 (by decide)).trans (w1_v26 m ρ c)
theorem w2_arg3 : W2 m ρ c (Proc.devRef .tc main_arg3) = (m ((c : Thread nD τ).loc main_arg3)) :=
  (W2_of_ne m ρ c main_arg3 (by decide)).trans (w1_arg3 m ρ c)
theorem w2_arg4 : W2 m ρ c (Proc.devRef .tc main_arg4) = (m ((c : Thread nD τ).loc main_arg4)) :=
  (W2_of_ne m ρ c main_arg4 (by decide)).trans (w1_arg4 m ρ c)
theorem w2_arg5 : W2 m ρ c (Proc.devRef .tc main_arg5) = (m ((c : Thread nD τ).loc main_arg5)) :=
  (W2_of_ne m ρ c main_arg5 (by decide)).trans (w1_arg5 m ρ c)
theorem w2_arg6 : W2 m ρ c (Proc.devRef .tc main_arg6) = (m ((c : Thread nD τ).loc main_arg6)) :=
  (W2_of_ne m ρ c main_arg6 (by decide)).trans (w1_arg6 m ρ c)
theorem w2_arg7 : W2 m ρ c (Proc.devRef .tc main_arg7) = (m ((c : Thread nD τ).loc main_arg7)) :=
  (W2_of_ne m ρ c main_arg7 (by decide)).trans (w1_arg7 m ρ c)
theorem w2_arg8 : W2 m ρ c (Proc.devRef .tc main_arg8) = (m ((c : Thread nD τ).loc main_arg8)) :=
  (W2_of_ne m ρ c main_arg8 (by decide)).trans (w1_arg8 m ρ c)
theorem w2_arg9 : W2 m ρ c (Proc.devRef .tc main_arg9) = (m ((c : Thread nD τ).loc main_arg9)) :=
  (W2_of_ne m ρ c main_arg9 (by decide)).trans (w1_arg9 m ρ c)
theorem w2_arg10 : W2 m ρ c (Proc.devRef .tc main_arg10) = (m ((c : Thread nD τ).loc main_arg10)) :=
  (W2_of_ne m ρ c main_arg10 (by decide)).trans (w1_arg10 m ρ c)
theorem w2_arg11 : W2 m ρ c (Proc.devRef .tc main_arg11) = (m ((c : Thread nD τ).loc main_arg11)) :=
  (W2_of_ne m ρ c main_arg11 (by decide)).trans (w1_arg11 m ρ c)

/-! ### What boundary 3 still holds of the launch contents and of the edge arrays -/

theorem w3_v3 : W3 m ρ c (Proc.devRef .tc main_v3) = (val_main_v3 (F := Ideal) (m ((c : Thread nD τ).loc main_arg1))) := by
  refine Eq.trans (b := W2 m ρ c (Proc.devRef .tc main_v3)) ?_ (w2_v3 m ρ c)
  skip_host hostOps1
theorem w3_v6 : W3 m ρ c (Proc.devRef .tc main_v6) = (val_main_v6 (F := Ideal) (m ((c : Thread nD τ).loc main_arg1))) := by
  refine Eq.trans (b := W2 m ρ c (Proc.devRef .tc main_v6)) ?_ (w2_v6 m ρ c)
  skip_host hostOps1
theorem w3_v26 : W3 m ρ c (Proc.devRef .tc main_v26) = (val_main_v26 (F := Ideal) (m ((c : Thread nD τ).loc main_arg1))) := by
  refine Eq.trans (b := W2 m ρ c (Proc.devRef .tc main_v26)) ?_ (w2_v26 m ρ c)
  skip_host hostOps1
theorem w3_arg4 : W3 m ρ c (Proc.devRef .tc main_arg4) = (m ((c : Thread nD τ).loc main_arg4)) := by
  refine Eq.trans (b := W2 m ρ c (Proc.devRef .tc main_arg4)) ?_ (w2_arg4 m ρ c)
  skip_host hostOps1
theorem w3_arg5 : W3 m ρ c (Proc.devRef .tc main_arg5) = (m ((c : Thread nD τ).loc main_arg5)) := by
  refine Eq.trans (b := W2 m ρ c (Proc.devRef .tc main_arg5)) ?_ (w2_arg5 m ρ c)
  skip_host hostOps1
theorem w3_arg6 : W3 m ρ c (Proc.devRef .tc main_arg6) = (m ((c : Thread nD τ).loc main_arg6)) := by
  refine Eq.trans (b := W2 m ρ c (Proc.devRef .tc main_arg6)) ?_ (w2_arg6 m ρ c)
  skip_host hostOps1
theorem w3_arg7 : W3 m ρ c (Proc.devRef .tc main_arg7) = (m ((c : Thread nD τ).loc main_arg7)) := by
  refine Eq.trans (b := W2 m ρ c (Proc.devRef .tc main_arg7)) ?_ (w2_arg7 m ρ c)
  skip_host hostOps1
theorem w3_arg8 : W3 m ρ c (Proc.devRef .tc main_arg8) = (m ((c : Thread nD τ).loc main_arg8)) := by
  refine Eq.trans (b := W2 m ρ c (Proc.devRef .tc main_arg8)) ?_ (w2_arg8 m ρ c)
  skip_host hostOps1
theorem w3_arg9 : W3 m ρ c (Proc.devRef .tc main_arg9) = (m ((c : Thread nD τ).loc main_arg9)) := by
  refine Eq.trans (b := W2 m ρ c (Proc.devRef .tc main_arg9)) ?_ (w2_arg9 m ρ c)
  skip_host hostOps1
theorem w3_arg10 : W3 m ρ c (Proc.devRef .tc main_arg10) = (m ((c : Thread nD τ).loc main_arg10)) := by
  refine Eq.trans (b := W2 m ρ c (Proc.devRef .tc main_arg10)) ?_ (w2_arg10 m ρ c)
  skip_host hostOps1
theorem w3_arg11 : W3 m ρ c (Proc.devRef .tc main_arg11) = (m ((c : Thread nD τ).loc main_arg11)) := by
  refine Eq.trans (b := W2 m ρ c (Proc.devRef .tc main_arg11)) ?_ (w2_arg11 m ρ c)
  skip_host hostOps1

/-! ### What boundary 4 still holds of the launch contents and of the edge arrays -/

theorem w4_v3 : W4 m ρ c (Proc.devRef .tc main_v3) = (val_main_v3 (F := Ideal) (m ((c : Thread nD τ).loc main_arg1))) :=
  (W4_of_ne m ρ c main_v3 (by decide)).trans (w3_v3 m ρ c)
theorem w4_v6 : W4 m ρ c (Proc.devRef .tc main_v6) = (val_main_v6 (F := Ideal) (m ((c : Thread nD τ).loc main_arg1))) :=
  (W4_of_ne m ρ c main_v6 (by decide)).trans (w3_v6 m ρ c)
theorem w4_v26 : W4 m ρ c (Proc.devRef .tc main_v26) = (val_main_v26 (F := Ideal) (m ((c : Thread nD τ).loc main_arg1))) :=
  (W4_of_ne m ρ c main_v26 (by decide)).trans (w3_v26 m ρ c)
theorem w4_arg4 : W4 m ρ c (Proc.devRef .tc main_arg4) = (m ((c : Thread nD τ).loc main_arg4)) :=
  (W4_of_ne m ρ c main_arg4 (by decide)).trans (w3_arg4 m ρ c)
theorem w4_arg5 : W4 m ρ c (Proc.devRef .tc main_arg5) = (m ((c : Thread nD τ).loc main_arg5)) :=
  (W4_of_ne m ρ c main_arg5 (by decide)).trans (w3_arg5 m ρ c)
theorem w4_arg6 : W4 m ρ c (Proc.devRef .tc main_arg6) = (m ((c : Thread nD τ).loc main_arg6)) :=
  (W4_of_ne m ρ c main_arg6 (by decide)).trans (w3_arg6 m ρ c)
theorem w4_arg7 : W4 m ρ c (Proc.devRef .tc main_arg7) = (m ((c : Thread nD τ).loc main_arg7)) :=
  (W4_of_ne m ρ c main_arg7 (by decide)).trans (w3_arg7 m ρ c)
theorem w4_arg8 : W4 m ρ c (Proc.devRef .tc main_arg8) = (m ((c : Thread nD τ).loc main_arg8)) :=
  (W4_of_ne m ρ c main_arg8 (by decide)).trans (w3_arg8 m ρ c)
theorem w4_arg9 : W4 m ρ c (Proc.devRef .tc main_arg9) = (m ((c : Thread nD τ).loc main_arg9)) :=
  (W4_of_ne m ρ c main_arg9 (by decide)).trans (w3_arg9 m ρ c)
theorem w4_arg10 : W4 m ρ c (Proc.devRef .tc main_arg10) = (m ((c : Thread nD τ).loc main_arg10)) :=
  (W4_of_ne m ρ c main_arg10 (by decide)).trans (w3_arg10 m ρ c)
theorem w4_arg11 : W4 m ρ c (Proc.devRef .tc main_arg11) = (m ((c : Thread nD τ).loc main_arg11)) :=
  (W4_of_ne m ρ c main_arg11 (by decide)).trans (w3_arg11 m ρ c)

/-! ### What boundary 5 still holds of the launch contents and of the edge arrays -/

theorem w5_v3 : W5 m ρ c (Proc.devRef .tc main_v3) = (val_main_v3 (F := Ideal) (m ((c : Thread nD τ).loc main_arg1))) :=
  (W5_of_ne m ρ c main_v3 (by decide)).trans (w4_v3 m ρ c)
theorem w5_v6 : W5 m ρ c (Proc.devRef .tc main_v6) = (val_main_v6 (F := Ideal) (m ((c : Thread nD τ).loc main_arg1))) :=
  (W5_of_ne m ρ c main_v6 (by decide)).trans (w4_v6 m ρ c)
theorem w5_v26 : W5 m ρ c (Proc.devRef .tc main_v26) = (val_main_v26 (F := Ideal) (m ((c : Thread nD τ).loc main_arg1))) :=
  (W5_of_ne m ρ c main_v26 (by decide)).trans (w4_v26 m ρ c)
theorem w5_arg5 : W5 m ρ c (Proc.devRef .tc main_arg5) = (m ((c : Thread nD τ).loc main_arg5)) :=
  (W5_of_ne m ρ c main_arg5 (by decide)).trans (w4_arg5 m ρ c)
theorem w5_arg6 : W5 m ρ c (Proc.devRef .tc main_arg6) = (m ((c : Thread nD τ).loc main_arg6)) :=
  (W5_of_ne m ρ c main_arg6 (by decide)).trans (w4_arg6 m ρ c)
theorem w5_arg7 : W5 m ρ c (Proc.devRef .tc main_arg7) = (m ((c : Thread nD τ).loc main_arg7)) :=
  (W5_of_ne m ρ c main_arg7 (by decide)).trans (w4_arg7 m ρ c)
theorem w5_arg8 : W5 m ρ c (Proc.devRef .tc main_arg8) = (m ((c : Thread nD τ).loc main_arg8)) :=
  (W5_of_ne m ρ c main_arg8 (by decide)).trans (w4_arg8 m ρ c)
theorem w5_arg9 : W5 m ρ c (Proc.devRef .tc main_arg9) = (m ((c : Thread nD τ).loc main_arg9)) :=
  (W5_of_ne m ρ c main_arg9 (by decide)).trans (w4_arg9 m ρ c)
theorem w5_arg10 : W5 m ρ c (Proc.devRef .tc main_arg10) = (m ((c : Thread nD τ).loc main_arg10)) :=
  (W5_of_ne m ρ c main_arg10 (by decide)).trans (w4_arg10 m ρ c)
theorem w5_arg11 : W5 m ρ c (Proc.devRef .tc main_arg11) = (m ((c : Thread nD τ).loc main_arg11)) :=
  (W5_of_ne m ρ c main_arg11 (by decide)).trans (w4_arg11 m ρ c)

/-! ### What boundary 6 still holds of the launch contents and of the edge arrays -/

theorem w6_v3 : W6 m ρ c (Proc.devRef .tc main_v3) = (val_main_v3 (F := Ideal) (m ((c : Thread nD τ).loc main_arg1))) := by
  refine Eq.trans (b := W5 m ρ c (Proc.devRef .tc main_v3)) ?_ (w5_v3 m ρ c)
  skip_host hostOps3
theorem w6_v6 : W6 m ρ c (Proc.devRef .tc main_v6) = (val_main_v6 (F := Ideal) (m ((c : Thread nD τ).loc main_arg1))) := by
  refine Eq.trans (b := W5 m ρ c (Proc.devRef .tc main_v6)) ?_ (w5_v6 m ρ c)
  skip_host hostOps3
theorem w6_v26 : W6 m ρ c (Proc.devRef .tc main_v26) = (val_main_v26 (F := Ideal) (m ((c : Thread nD τ).loc main_arg1))) := by
  refine Eq.trans (b := W5 m ρ c (Proc.devRef .tc main_v26)) ?_ (w5_v26 m ρ c)
  skip_host hostOps3
theorem w6_arg6 : W6 m ρ c (Proc.devRef .tc main_arg6) = (m ((c : Thread nD τ).loc main_arg6)) := by
  refine Eq.trans (b := W5 m ρ c (Proc.devRef .tc main_arg6)) ?_ (w5_arg6 m ρ c)
  skip_host hostOps3
theorem w6_arg7 : W6 m ρ c (Proc.devRef .tc main_arg7) = (m ((c : Thread nD τ).loc main_arg7)) := by
  refine Eq.trans (b := W5 m ρ c (Proc.devRef .tc main_arg7)) ?_ (w5_arg7 m ρ c)
  skip_host hostOps3
theorem w6_arg8 : W6 m ρ c (Proc.devRef .tc main_arg8) = (m ((c : Thread nD τ).loc main_arg8)) := by
  refine Eq.trans (b := W5 m ρ c (Proc.devRef .tc main_arg8)) ?_ (w5_arg8 m ρ c)
  skip_host hostOps3
theorem w6_arg9 : W6 m ρ c (Proc.devRef .tc main_arg9) = (m ((c : Thread nD τ).loc main_arg9)) := by
  refine Eq.trans (b := W5 m ρ c (Proc.devRef .tc main_arg9)) ?_ (w5_arg9 m ρ c)
  skip_host hostOps3
theorem w6_arg10 : W6 m ρ c (Proc.devRef .tc main_arg10) = (m ((c : Thread nD τ).loc main_arg10)) := by
  refine Eq.trans (b := W5 m ρ c (Proc.devRef .tc main_arg10)) ?_ (w5_arg10 m ρ c)
  skip_host hostOps3
theorem w6_arg11 : W6 m ρ c (Proc.devRef .tc main_arg11) = (m ((c : Thread nD τ).loc main_arg11)) := by
  refine Eq.trans (b := W5 m ρ c (Proc.devRef .tc main_arg11)) ?_ (w5_arg11 m ρ c)
  skip_host hostOps3

/-! ### What boundary 7 still holds of the launch contents and of the edge arrays -/

theorem w7_v3 : W7 m ρ c (Proc.devRef .tc main_v3) = (val_main_v3 (F := Ideal) (m ((c : Thread nD τ).loc main_arg1))) :=
  (W7_of_ne m ρ c main_v3 (by decide)).trans (w6_v3 m ρ c)
theorem w7_v6 : W7 m ρ c (Proc.devRef .tc main_v6) = (val_main_v6 (F := Ideal) (m ((c : Thread nD τ).loc main_arg1))) :=
  (W7_of_ne m ρ c main_v6 (by decide)).trans (w6_v6 m ρ c)
theorem w7_v26 : W7 m ρ c (Proc.devRef .tc main_v26) = (val_main_v26 (F := Ideal) (m ((c : Thread nD τ).loc main_arg1))) :=
  (W7_of_ne m ρ c main_v26 (by decide)).trans (w6_v26 m ρ c)
theorem w7_arg6 : W7 m ρ c (Proc.devRef .tc main_arg6) = (m ((c : Thread nD τ).loc main_arg6)) :=
  (W7_of_ne m ρ c main_arg6 (by decide)).trans (w6_arg6 m ρ c)
theorem w7_arg7 : W7 m ρ c (Proc.devRef .tc main_arg7) = (m ((c : Thread nD τ).loc main_arg7)) :=
  (W7_of_ne m ρ c main_arg7 (by decide)).trans (w6_arg7 m ρ c)
theorem w7_arg8 : W7 m ρ c (Proc.devRef .tc main_arg8) = (m ((c : Thread nD τ).loc main_arg8)) :=
  (W7_of_ne m ρ c main_arg8 (by decide)).trans (w6_arg8 m ρ c)
theorem w7_arg9 : W7 m ρ c (Proc.devRef .tc main_arg9) = (m ((c : Thread nD τ).loc main_arg9)) :=
  (W7_of_ne m ρ c main_arg9 (by decide)).trans (w6_arg9 m ρ c)
theorem w7_arg10 : W7 m ρ c (Proc.devRef .tc main_arg10) = (m ((c : Thread nD τ).loc main_arg10)) :=
  (W7_of_ne m ρ c main_arg10 (by decide)).trans (w6_arg10 m ρ c)
theorem w7_arg11 : W7 m ρ c (Proc.devRef .tc main_arg11) = (m ((c : Thread nD τ).loc main_arg11)) :=
  (W7_of_ne m ρ c main_arg11 (by decide)).trans (w6_arg11 m ρ c)

/-! ### What boundary 8 still holds of the launch contents and of the edge arrays -/

theorem w8_v3 : W8 m ρ c (Proc.devRef .tc main_v3) = (val_main_v3 (F := Ideal) (m ((c : Thread nD τ).loc main_arg1))) :=
  (W8_of_ne m ρ c main_v3 (by decide)).trans (w7_v3 m ρ c)
theorem w8_v6 : W8 m ρ c (Proc.devRef .tc main_v6) = (val_main_v6 (F := Ideal) (m ((c : Thread nD τ).loc main_arg1))) :=
  (W8_of_ne m ρ c main_v6 (by decide)).trans (w7_v6 m ρ c)
theorem w8_v26 : W8 m ρ c (Proc.devRef .tc main_v26) = (val_main_v26 (F := Ideal) (m ((c : Thread nD τ).loc main_arg1))) :=
  (W8_of_ne m ρ c main_v26 (by decide)).trans (w7_v26 m ρ c)
theorem w8_arg7 : W8 m ρ c (Proc.devRef .tc main_arg7) = (m ((c : Thread nD τ).loc main_arg7)) :=
  (W8_of_ne m ρ c main_arg7 (by decide)).trans (w7_arg7 m ρ c)
theorem w8_arg8 : W8 m ρ c (Proc.devRef .tc main_arg8) = (m ((c : Thread nD τ).loc main_arg8)) :=
  (W8_of_ne m ρ c main_arg8 (by decide)).trans (w7_arg8 m ρ c)
theorem w8_arg9 : W8 m ρ c (Proc.devRef .tc main_arg9) = (m ((c : Thread nD τ).loc main_arg9)) :=
  (W8_of_ne m ρ c main_arg9 (by decide)).trans (w7_arg9 m ρ c)
theorem w8_arg10 : W8 m ρ c (Proc.devRef .tc main_arg10) = (m ((c : Thread nD τ).loc main_arg10)) :=
  (W8_of_ne m ρ c main_arg10 (by decide)).trans (w7_arg10 m ρ c)
theorem w8_arg11 : W8 m ρ c (Proc.devRef .tc main_arg11) = (m ((c : Thread nD τ).loc main_arg11)) :=
  (W8_of_ne m ρ c main_arg11 (by decide)).trans (w7_arg11 m ρ c)

/-! ### What boundary 9 still holds of the launch contents and of the edge arrays -/

theorem w9_arg8 : W9 m ρ c (Proc.devRef .tc main_arg8) = (m ((c : Thread nD τ).loc main_arg8)) := by
  refine Eq.trans (b := W8 m ρ c (Proc.devRef .tc main_arg8)) ?_ (w8_arg8 m ρ c)
  skip_host hostOps5
theorem w9_arg9 : W9 m ρ c (Proc.devRef .tc main_arg9) = (m ((c : Thread nD τ).loc main_arg9)) := by
  refine Eq.trans (b := W8 m ρ c (Proc.devRef .tc main_arg9)) ?_ (w8_arg9 m ρ c)
  skip_host hostOps5
theorem w9_arg10 : W9 m ρ c (Proc.devRef .tc main_arg10) = (m ((c : Thread nD τ).loc main_arg10)) := by
  refine Eq.trans (b := W8 m ρ c (Proc.devRef .tc main_arg10)) ?_ (w8_arg10 m ρ c)
  skip_host hostOps5
theorem w9_arg11 : W9 m ρ c (Proc.devRef .tc main_arg11) = (m ((c : Thread nD τ).loc main_arg11)) := by
  refine Eq.trans (b := W8 m ρ c (Proc.devRef .tc main_arg11)) ?_ (w8_arg11 m ρ c)
  skip_host hostOps5

/-! ### What boundary 10 still holds of the launch contents and of the edge arrays -/

theorem w10_arg8 : W10 m ρ c (Proc.devRef .tc main_arg8) = (m ((c : Thread nD τ).loc main_arg8)) :=
  (W10_of_ne m ρ c main_arg8 (by decide)).trans (w9_arg8 m ρ c)
theorem w10_arg9 : W10 m ρ c (Proc.devRef .tc main_arg9) = (m ((c : Thread nD τ).loc main_arg9)) :=
  (W10_of_ne m ρ c main_arg9 (by decide)).trans (w9_arg9 m ρ c)
theorem w10_arg10 : W10 m ρ c (Proc.devRef .tc main_arg10) = (m ((c : Thread nD τ).loc main_arg10)) :=
  (W10_of_ne m ρ c main_arg10 (by decide)).trans (w9_arg10 m ρ c)
theorem w10_arg11 : W10 m ρ c (Proc.devRef .tc main_arg11) = (m ((c : Thread nD τ).loc main_arg11)) :=
  (W10_of_ne m ρ c main_arg11 (by decide)).trans (w9_arg11 m ρ c)

end Cert.KernelIdeal.Chain

end
-- ==== Proof.LibDotPlain.lean ====
/-
  The dimension numbers of a plain matrix product — the left operand contracted on its last axis, the right on its
  first, no batch axes — read at an index. At result position (i, q) and contraction position k the left operand is
  read at (i, k) and the right at (k, q); the contraction shape has one axis of the shared extent, so the sum over it
  is the ordinary sum over k of l(i, k) · r(k, q). Both a tiled matrix unit product into a zero accumulator and a host
  dot product then read, at the ideal instance, as that sum, whatever the extents.
-/
import Idealize.ShloMosaic.PureOps.Ideal.Laws
import Idealize.ShloMosaic.Lib.ValueIdx

noncomputable section

open scoped BigOperators

namespace Idealize.ShloMosaic.DotPlain

open Idealize.ShloMosaic Idealize.ShloMosaic.ValueIdx

variable {M K N : Nat} (d : DotDims ⟨2, ![M, K]⟩ ⟨2, ![K, N]⟩ ⟨2, ![M, N]⟩)

/-- The dimension numbers are those of a plain product: [1] × [0] contracted, [0] and [1] kept, no batch axes. -/
structure IsPlain : Prop where
  lc : d.lhsContracting = [1]
  rc : d.rhsContracting = [0]
  ln : d.lhsNonContracting = [0]
  rn : d.rhsNonContracting = [1]
  lb : d.lhsBatch = []
  rb : d.rhsBatch = []

variable {d}

theorem rank_one (h : IsPlain d) : d.contr.rank = 1 := by rw [d.rank_contr, h.lc]; rfl

theorem size_zero (h : IsPlain d) : d.contr.size ⟨0, by rw [rank_one h]; exact Nat.one_pos⟩ = K := by
  rw [d.size_contr 0 (by rw [h.lc]; exact Nat.one_pos)]
  have e : d.lhsContracting[0]'(by rw [h.lc]; exact Nat.one_pos) = (1 : Fin 2) := by simp [h.lc]
  rw [e]; rfl

/-- The contraction positions are the numbers below the shared extent. -/
def pos (h : IsPlain d) : d.contr.Idx ≃ Fin K := contrEquiv1 d K (rank_one h) (size_zero h)

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq e => by subst e; rfl

theorem lhsIdx_row (h : IsPlain d) (j : (⟨2, ![M, N]⟩ : Shape).Idx) (k : d.contr.Idx) :
    (d.lhsIdx j k 0).val = (j 0).val := by
  have hb : (0 : Fin 2) ∉ d.lhsBatch := by rw [h.lb]; exact List.not_mem_nil
  have hn : (0 : Fin 2) ∈ d.lhsNonContracting := by rw [h.ln]; exact List.mem_singleton.mpr rfl
  unfold DotDims.lhsIdx
  rw [dif_neg hb, dif_pos hn]
  simp only [Fin.val_cast]
  exact val_congr j _ _ _ _ (by simp [h.lb, h.ln])

theorem lhsIdx_col (h : IsPlain d) (j : (⟨2, ![M, N]⟩ : Shape).Idx) (k : d.contr.Idx) :
    (d.lhsIdx j k 1).val = (pos h k).val := by
  rw [d.lhsIdx_val_of_single h.lc j k]; rfl

theorem rhsIdx_row (h : IsPlain d) (j : (⟨2, ![M, N]⟩ : Shape).Idx) (k : d.contr.Idx) :
    (d.rhsIdx j k 0).val = (pos h k).val := by
  rw [d.rhsIdx_val_of_single h.rc j k]; rfl

theorem rhsIdx_col (h : IsPlain d) (j : (⟨2, ![M, N]⟩ : Shape).Idx) (k : d.contr.Idx) :
    (d.rhsIdx j k 1).val = (j 1).val := by
  have hb : (1 : Fin 2) ∉ d.rhsBatch := by rw [h.rb]; exact List.not_mem_nil
  have hn : (1 : Fin 2) ∈ d.rhsNonContracting := by rw [h.rn]; exact List.mem_singleton.mpr rfl
  unfold DotDims.rhsIdx
  rw [dif_neg hb, dif_pos hn]
  simp only [Fin.val_cast]
  exact val_congr j _ _ _ _ (by simp [h.lb, h.ln, h.rn])

theorem lhsIdx_eq (h : IsPlain d) (j : (⟨2, ![M, N]⟩ : Shape).Idx) (k : d.contr.Idx) :
    d.lhsIdx j k = ix2 (j 0) (pos h k) := by
  funext a; apply Fin.ext
  match a with
  | ⟨0, _⟩ => exact lhsIdx_row h j k
  | ⟨1, _⟩ => exact lhsIdx_col h j k

theorem rhsIdx_eq (h : IsPlain d) (j : (⟨2, ![M, N]⟩ : Shape).Idx) (k : d.contr.Idx) :
    d.rhsIdx j k = ix2 (pos h k) (j 1) := by
  funext a; apply Fin.ext
  match a with
  | ⟨0, _⟩ => exact rhsIdx_row h j k
  | ⟨1, _⟩ => exact rhsIdx_col h j k

/-- THE CONTRACTION SUM of a plain product is the sum over k below the shared extent of l(i, k) · r(k, q). -/
theorem sum_eq (h : IsPlain d) (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k) = ∑ k : Fin K, l (ix2 (j 0) k) * r (ix2 k (j 1)) := by
  rw [← Equiv.sum_comp (pos h) (fun k : Fin K => l (ix2 (j 0) k) * r (ix2 k (j 1)))]
  exact Finset.sum_congr rfl fun k _ => by rw [lhsIdx_eq h j k, rhsIdx_eq h j k]; rfl

/-- A matrix unit product into a zero accumulator, at the ideal instance and at an index. -/
theorem matmul_zero_apply (h : IsPlain d) (prec : Option ContractPrecision) {φ₁ φ₂ : FTy}
    (l : FVec Ideal ⟨2, ![M, K]⟩ φ₁) (r : FVec Ideal ⟨2, ![K, N]⟩ φ₂) (j : (⟨2, ![M, N]⟩ : Shape).Idx) :
    matmul d prec l r (constant (F := Ideal) ⟨2, ![M, N]⟩ .f32 0x00000000#32) j = ∑ k : Fin K, l (ix2 (j 0) k) * r (ix2 k (j 1)) :=
  (Ideal.matmul_constant_zero_apply d prec l r j).trans (sum_eq h l r j)

/-- A host dot product, at the ideal instance and at an index. -/
theorem dotGeneral_apply (h : IsPlain d) (prec : Option ContractPrecision) {φ₁ φ₂ : FTy}
    (l : FVec Ideal ⟨2, ![M, K]⟩ φ₁) (r : FVec Ideal ⟨2, ![K, N]⟩ φ₂) (j : (⟨2, ![M, N]⟩ : Shape).Idx) :
    Host.dotGeneral d prec l r j = ∑ k : Fin K, l (ix2 (j 0) k) * r (ix2 k (j 1)) := by
  unfold Host.dotGeneral
  exact (Ideal.dotGeneral_apply d prec _ l r j).trans (sum_eq h l r j)

end Idealize.ShloMosaic.DotPlain

end
-- ==== Proof.LibMatProd.lean ====
/-
  The product of an M×K and a K×N array of extended reals as ONE function of the two arrays: entry (i, q) is the sum over
  k of l(i, k) · r(k, q). A host dot product with plain matrix-product dimension numbers, and a matrix-unit product into
  a zero accumulator, are that function at the ideal instance; and an entry of the product depends only on row i of the
  left operand and column q of the right one, so the product of a block of rows with the right operand is that block of
  rows of the whole product.
-/
import proofs.«179234_j19267223289970_1_alg».proof.Proof.LibDotPlain

noncomputable section

open scoped BigOperators

namespace Idealize.ShloMosaic.MatProd

open Idealize.ShloMosaic Idealize.ShloMosaic.ValueIdx Idealize.ShloMosaic.DotPlain

/-- Entry (i, q) of the product: the sum over k of l(i, k) · r(k, q). -/
def matProd {M K N : Nat} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

variable {M K N : Nat} {d : DotDims ⟨2, ![M, K]⟩ ⟨2, ![K, N]⟩ ⟨2, ![M, N]⟩}

/-- A host dot product with plain dimension numbers is the product. -/
theorem dotGeneral_eq (h : IsPlain d) (prec : Option ContractPrecision) {φ₁ φ₂ : FTy}
    (l : FVec Ideal ⟨2, ![M, K]⟩ φ₁) (r : FVec Ideal ⟨2, ![K, N]⟩ φ₂) :
    Host.dotGeneral d prec l r = matProd l r :=
  funext fun j => DotPlain.dotGeneral_apply h prec l r j

/-- A matrix-unit product into a zero accumulator is the product, at an entry. -/
theorem matmul_zero_apply (h : IsPlain d) (prec : Option ContractPrecision) {φ₁ φ₂ : FTy}
    (l : FVec Ideal ⟨2, ![M, K]⟩ φ₁) (r : FVec Ideal ⟨2, ![K, N]⟩ φ₂) (j : (⟨2, ![M, N]⟩ : Shape).Idx) :
    matmul d prec l r (constant (F := Ideal) ⟨2, ![M, N]⟩ .f32 0x00000000#32) j = matProd l r j :=
  DotPlain.matmul_zero_apply h prec l r j

/-- An entry of a product of a block of rows (and a copy of the right operand) is the entry of the whole product whose
    row the block's row is: the sums agree term by term. -/
theorem matProd_of_rows {B : Nat} (lb : (⟨2, ![B, K]⟩ : Shape).Idx → EReal) (rb : (⟨2, ![K, N]⟩ : Shape).Idx → EReal)
    (l : (⟨2, ![M, K]⟩ : Shape).Idx → EReal) (r : (⟨2, ![K, N]⟩ : Shape).Idx → EReal)
    (p : Fin B) (q : Fin N) (i : Fin M)
    (hl : ∀ k : Fin K, lb (ix2 p k) = l (ix2 i k)) (hr : ∀ k : Fin K, rb (ix2 k q) = r (ix2 k q)) :
    matProd lb rb (ix2 p q) = matProd l r (ix2 i q) :=
  Finset.sum_congr rfl fun k _ => by
    show lb (ix2 p k) * rb (ix2 k q) = l (ix2 i k) * r (ix2 k q)
    rw [hl k, hr k]

end Idealize.ShloMosaic.MatProd

end
-- ==== Proof.LibActivation.lean ====
/-
  Bias and activation, entry by entry, as functions of whole arrays.

  A hidden layer adds a bias to every row of an array and takes the maximum with zero; the output layer adds a bias and
  applies the logistic function 1 / (1 + e^(-x)). The bias comes either as a vector of length n or as an array of one
  row [1, n]; entry (i, d) of the result uses the bias entry d either way, so the one-row form over a vector laid out as
  a row is the vector form. Zero is kept as the float word it is written with in both programs.
-/
import Idealize.ShloMosaic.PureOps.Ideal
import Idealize.ShloMosaic.Lib.ValueIdx
import Idealize.ShloMosaic.Lib.ValueLayout
import Idealize.ShloMosaic.Lib.Pipeline.Value

noncomputable section

namespace Cert.Activation

open Idealize.ShloMosaic Idealize.ShloMosaic.ValueIdx

variable {a n : Nat}

/-- Bias row added to every row, then the maximum with zero. -/
def rectifiedRow (A : (⟨2, ![a, n]⟩ : Shape).Idx → EReal) (b : (⟨2, ![1, n]⟩ : Shape).Idx → EReal) :
    (⟨2, ![a, n]⟩ : Shape).Idx → EReal :=
  fun i => max (A i + b (ix2 (0 : Fin 1) (i 1))) (Ideal.ofBits .f32 0x00000000#32)

theorem rectifiedRow_apply (A : (⟨2, ![a, n]⟩ : Shape).Idx → EReal) (b : (⟨2, ![1, n]⟩ : Shape).Idx → EReal)
    (p : Fin a) (d : Fin n) :
    rectifiedRow A b (ix2 p d) = max (A (ix2 p d) + b (ix2 (0 : Fin 1) d)) (Ideal.ofBits .f32 0x00000000#32) := rfl

/-- Bias vector added to every row, then the maximum with zero. -/
def rectified (A : (⟨2, ![a, n]⟩ : Shape).Idx → EReal) (b : (⟨1, ![n]⟩ : Shape).Idx → EReal) :
    (⟨2, ![a, n]⟩ : Shape).Idx → EReal :=
  fun i => max (A i + b (ix1 (i 1))) (Ideal.ofBits .f32 0x00000000#32)

theorem rectified_apply (A : (⟨2, ![a, n]⟩ : Shape).Idx → EReal) (b : (⟨1, ![n]⟩ : Shape).Idx → EReal)
    (p : Fin a) (d : Fin n) :
    rectified A b (ix2 p d) = max (A (ix2 p d) + b (ix1 d)) (Ideal.ofBits .f32 0x00000000#32) := rfl

/-- Bias row added to every row, then the logistic function. -/
def logisticRow (A : (⟨2, ![a, n]⟩ : Shape).Idx → EReal) (b : (⟨2, ![1, n]⟩ : Shape).Idx → EReal) :
    (⟨2, ![a, n]⟩ : Shape).Idx → EReal :=
  fun i => Ideal.logistic (A i + b (ix2 (0 : Fin 1) (i 1)))

theorem logisticRow_apply (A : (⟨2, ![a, n]⟩ : Shape).Idx → EReal) (b : (⟨2, ![1, n]⟩ : Shape).Idx → EReal)
    (p : Fin a) (d : Fin n) :
    logisticRow A b (ix2 p d) = Ideal.logistic (A (ix2 p d) + b (ix2 (0 : Fin 1) d)) := rfl

/-- Bias vector added to every row, then the logistic function. -/
def logisticOf (A : (⟨2, ![a, n]⟩ : Shape).Idx → EReal) (b : (⟨1, ![n]⟩ : Shape).Idx → EReal) :
    (⟨2, ![a, n]⟩ : Shape).Idx → EReal :=
  fun i => Ideal.logistic (A i + b (ix1 (i 1)))

theorem logisticOf_apply (A : (⟨2, ![a, n]⟩ : Shape).Idx → EReal) (b : (⟨1, ![n]⟩ : Shape).Idx → EReal)
    (p : Fin a) (d : Fin n) :
    logisticOf A b (ix2 p d) = Ideal.logistic (A (ix2 p d) + b (ix1 d)) := rfl

/-- A bias vector laid out as one row gives the vector form of the rectified array. -/
theorem rectifiedRow_of_vector (A : (⟨2, ![a, n]⟩ : Shape).Idx → EReal) (b : (⟨1, ![n]⟩ : Shape).Idx → EReal)
    (h : (⟨1, ![n]⟩ : Shape).ShapeCasts ⟨2, ![1, n]⟩) :
    rectifiedRow A (shapeCast ⟨2, ![1, n]⟩ b h) = rectified A b := by
  funext i
  obtain ⟨p, d, rfl⟩ : ∃ (p : Fin a) (d : Fin n), i = ix2 p d := ⟨i 0, i 1, eq_ix2 i⟩
  rw [rectifiedRow_apply, rectified_apply, shapeCast_a_1a_apply]

/-- A bias vector laid out as one row gives the vector form of the logistic array. -/
theorem logisticRow_of_vector (A : (⟨2, ![a, n]⟩ : Shape).Idx → EReal) (b : (⟨1, ![n]⟩ : Shape).Idx → EReal)
    (h : (⟨1, ![n]⟩ : Shape).ShapeCasts ⟨2, ![1, n]⟩) :
    logisticRow A (shapeCast ⟨2, ![1, n]⟩ b h) = logisticOf A b := by
  funext i
  obtain ⟨p, d, rfl⟩ : ∃ (p : Fin a) (d : Fin n), i = ix2 p d := ⟨i 0, i 1, eq_ix2 i⟩
  rw [logisticRow_apply, logisticOf_apply, shapeCast_a_1a_apply]

end Cert.Activation

end
-- ==== Proof.Bodies.lean ====
/-
  What each kernel body computes from the blocks it loads, entry by entry, on the extended reals.

  Three kinds of body. A product body multiplies a block of rows by the whole weight matrix: entry (p, q) is the sum
  over k of x(p, k) · w(k, q) (the change of float format before the product is the identity on extended reals). A
  bias body adds a one-row bias to every row and takes the maximum with zero. The output body multiplies a block of
  rows by a three-column matrix and adds a one-row bias; its first two columns are one result, and the third column
  goes through the softplus max(v, 0) + log(1 + exp(-|v|)), written with a guard on v − 0 ≠ v − 0 that never fires.
-/
import proofs.«179234_j19267223289970_1_alg».proof.Proof.Gen.KernelIdeal.Skeleton
import proofs.«179234_j19267223289970_1_alg».proof.Proof.LibMatProd
import proofs.«179234_j19267223289970_1_alg».proof.Proof.LibActivation
import Idealize.ShloMosaic.Lib.ValueLayout
import Idealize.ShloMosaic.Lib.Pipeline.Value
import Idealize.ShloMosaic.Lib.ValueIdx

noncomputable section

namespace Cert.KernelIdeal.Bodies

open Idealize.ShloMosaic Idealize.ShloMosaic.ValueIdx Cert.KernelIdeal Cert.KernelIdeal.Gen Cert.Activation
open Idealize.ShloMosaic.MatProd Idealize.ShloMosaic.DotPlain

theorem plain_128_64 : IsPlain dot_S10000x128_S128x64_S10000x64_1_0_0_1_n_n := ⟨rfl, rfl, rfl, rfl, rfl, rfl⟩
theorem plain_64_64 : IsPlain dot_S10000x64_S64x64_S10000x64_1_0_0_1_n_n := ⟨rfl, rfl, rfl, rfl, rfl, rfl⟩
theorem plain_64_3 : IsPlain dot_S10000x64_S64x3_S10000x3_1_0_0_1_n_n := ⟨rfl, rfl, rfl, rfl, rfl, rfl⟩

/-- The first layer's product body: the block of rows times the weights. -/
theorem product128 (x : Vec Ideal S10000x128 .f32) (w : Vec Ideal S128x64 .f32) :
    k0_pay1 (F := Ideal) x w = matProd x w :=
  funext fun j => MatProd.matmul_zero_apply plain_128_64 none x w j

/-- The second layer's product body. -/
theorem product64a (x : Vec Ideal S10000x64 .f32) (w : Vec Ideal S64x64 .f32) :
    k2_pay1 (F := Ideal) x w = matProd x w := by
  funext j
  refine (MatProd.matmul_zero_apply plain_64_64 none (shapeCast S10000x64 x shapeCasts_S10000x64_S10000x64) w j).trans ?_
  rw [shapeCast_self]

/-- The third layer's product body. -/
theorem product64b (x : Vec Ideal S10000x64 .f32) (w : Vec Ideal S64x64 .f32) :
    k4_pay1 (F := Ideal) x w = matProd x w := product64a x w

/-- A bias body: the one-row bias on every row, then the maximum with zero. -/
theorem biasRelu1 (a : Vec Ideal S10000x64 .f32) (b : Vec Ideal S1x64 .f32) :
    k1_pay1 (F := Ideal) a b = rectifiedRow a b := by
  funext j
  obtain ⟨p, d, rfl⟩ : ∃ (p : Fin 10000) (d : Fin 64), j = ix2 p d := ⟨j 0, j 1, eq_ix2 j⟩
  unfold k1_pay1
  rw [rectifiedRow_apply]
  show max (shapeCast S10000x64 a shapeCasts_S10000x64_S10000x64 (ix2 p d)
      + broadcastTo S10000x64 (shapeCast S1x64 b shapeCasts_S1x64_S1x64) broadcasts_S1x64_S10000x64 (ix2 p d)) _ = _
  rw [shapeCast_self, shapeCast_self, broadcastTo_1b_ab_apply]
  rfl

theorem biasRelu3 (a : Vec Ideal S10000x64 .f32) (b : Vec Ideal S1x64 .f32) :
    k3_pay1 (F := Ideal) a b = rectifiedRow a b := biasRelu1 a b

theorem biasRelu5 (a : Vec Ideal S10000x64 .f32) (b : Vec Ideal S1x64 .f32) :
    k5_pay1 (F := Ideal) a b = rectifiedRow a b := biasRelu1 a b

end Cert.KernelIdeal.Bodies

end
-- ==== Proof.Region0.lean ====
/-
  Launch 0: a product of the node features with a weight matrix, five blocks of 10000 rows.

  Grid point t loads rows 10000·t … 10000·t + 9999 of the left array and the whole weight matrix, and writes back the
  product of the two as rows 10000·t … of the result. Entry (p, q) of that block is the sum over k of
  x(10000·t + p, k) · w(k, q): entry (10000·t + p, q) of the product of the whole arrays. The five blocks tile the
  result, so after the launch the result array is the product of the two input arrays as the launch found them.
-/
import proofs.«179234_j19267223289970_1_alg».proof.Proof.Gen.KernelIdeal.Frame
import proofs.«179234_j19267223289970_1_alg».proof.Proof.Bodies
import Idealize.ShloMosaic.Lib.Pipeline.Value

set_option maxRecDepth 16384

noncomputable section

namespace Cert.KernelIdeal.Regions

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Activation
open Idealize.ShloMosaic.MatProd

variable (V : (c : Dev nD) → (b : Ref sig .tc) → Buf (Elt Ideal) ((c : Thread nD τ).loc b))

theorem zeros0 : (![0, 0] : Fin 2 → Nat) = fun _ => 0 := funext fun a => by fin_cases a <;> rfl

/-- The block index maps over the five grid points: the row-blocked windows sit at block (t, 0), the weights at (0, 0). -/
theorem blockIdx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What grid point t writes back is block t of the product of the whole arrays. -/
theorem flushed0 (c : Dev nD) (t : Fin cfg0.N) :
    (dat0 V c).flushed 2 t = ((cfg0.win 2).blk t).view.read (Elt Ideal) (matProd (V c main_arg0) (V c main_arg2)) := by
  show (cfg0.win 2).cut (grid0.coords t) ((dat0 V c).after 2 t) = _
  rw [after0_2]
  unfold out0_2
  rw [View.canon_unit_zero zeros0]
  simp only [View.ld_unit_zero (S := S10000x128) zeros0, View.ld_unit_zero (S := S128x64) zeros0]
  obtain ⟨e0, e1, e2, e3, e4, e5⟩ := blockIdx0 t
  have ht : t.val < 5 := t.isLt
  funext y
  refine (congrFun (Bodies.product128 _ _) y).trans ?_
  obtain ⟨p, q, rfl⟩ : ∃ (p : Fin 10000) (q : Fin 64), y = ix2 p q := ⟨y 0, y 1, eq_ix2 y⟩
  have hemb : ((cfg0.win 2).blk t).view.emb (ix2 p q) = ix2 (⟨t.val * 10000 + p.val, by omega⟩ : Fin 50000) q := by
    funext a; apply Fin.ext
    match a with
    | ⟨0, _⟩ => show win0_2.index t (0 : Fin 2) * 10000 + 1 * p.val = t.val * 10000 + p.val; omega
    | ⟨1, _⟩ => show win0_2.index t (1 : Fin 2) * 64 + 1 * q.val = q.val; omega
  refine Eq.trans ?_ (congrArg (matProd (V c main_arg0) (V c main_arg2)) hemb.symm)
  refine matProd_of_rows (iblk0 V c 0 t) (iblk0 V c 1 t) (V c main_arg0) (V c main_arg2) p q ⟨t.val * 10000 + p.val, by omega⟩ (fun k => ?_) (fun k => ?_)
  · show V c main_arg0 (((cfg0.win 0).blk t).view.emb (ix2 p k)) = _
    refine congrArg _ (funext fun a => Fin.ext ?_)
    match a with
    | ⟨0, _⟩ => show win0_0.index t (0 : Fin 2) * 10000 + 1 * p.val = t.val * 10000 + p.val; omega
    | ⟨1, _⟩ => show win0_0.index t (1 : Fin 2) * 128 + 1 * k.val = k.val; omega
  · show V c main_arg2 (((cfg0.win 1).blk t).view.emb (ix2 k q)) = _
    refine congrArg _ (funext fun a => Fin.ext ?_)
    match a with
    | ⟨0, _⟩ => show win0_1.index t (0 : Fin 2) * 128 + 1 * k.val = k.val; omega
    | ⟨1, _⟩ => show win0_1.index t (1 : Fin 2) * 64 + 1 * q.val = q.val; omega

/-- An index of the result array is in grid point t's block iff its row is among the block's 10000 rows. -/
theorem memBlock0 (t : Fin cfg0.N) (i : S50000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v27).slice (win0_2.rect t)).set ↔ _
  rw [View.set_slice_whole, Rect.mem_set_unit]
  exact Iff.rfl

/-- Every entry of the result array lies in the block of the grid point that holds its row. -/
theorem covered0 (i : S50000x64.Idx) : ∃ t : Fin cfg0.N, (cfg0.win 2).flush t = true ∧ i ∈ ((cfg0.win 2).blk t).view.set := by
  have hi0 : (i 0).val < 50000 := (i 0).isLt
  have hi1 : (i 1).val < 64 := (i 1).isLt
  let t : Fin cfg0.N := ⟨(i 0).val / 10000, by show (i 0).val / 10000 < 5; omega⟩
  obtain ⟨e0, e1, e2, e3, e4, e5⟩ := blockIdx0 t
  have et : t.val = (i 0).val / 10000 := rfl
  refine ⟨t, flush0_2 t, ?_⟩
  rw [memBlock0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- After the launch the result array is the product of the input arrays as the launch found them. -/
theorem result0 (c : Dev nD) : (dat0 V c).arrAt 2 cfg0.N = matProd (V c main_arg0) (V c main_arg2) :=
  (dat0 V c).arrAt_eq_of_cover 2 (matProd (V c main_arg0) (V c main_arg2)) (fun t _ => flushed0 V c t) covered0

end Cert.KernelIdeal.Regions

end
-- ==== Proof.LibRowOfVector.lean ====
/-
  A bias vector as an array of one row, two ways.

  A vector of length `a` can be made an array of shape `[1, a]` by a reshape (row-major positions are kept) or by a
  broadcast that sends the vector's axis to the array's second axis. Both arrays have entry `(0, q)` equal to entry `q`
  of the vector, so they are the same array. A tiled kernel usually receives its bias in the first form, a whole-array
  reference usually builds the second.
-/
import Idealize.ShloMosaic.Lib.ValueLayout
import Idealize.ShloMosaic.Lib.ValueIdx
import Idealize.ShloMosaic.Lib.Pipeline.Value

noncomputable section

namespace Cert.LibRowOfVector

open Idealize.ShloMosaic Idealize.ShloMosaic.ValueIdx

/-- A vector reshaped to an array of one row is the vector broadcast along that row: entry `(0, q)` of either is
    entry `q` of the vector. Holds for any element type and any length (for length one the broadcast reads index
    `0`, which is the only index). -/
theorem row_of_vector {α : Type} {a : ℕ} (x : (⟨1, ![a]⟩ : Shape).Idx → α) (h : (⟨1, ![a]⟩ : Shape).ShapeCasts ⟨2, ![1, a]⟩)
    (hb : (⟨1, ![a]⟩ : Shape).BroadcastsInDim ⟨2, ![1, a]⟩ ![1]) :
    shapeCast ⟨2, ![1, a]⟩ x h = broadcastInDim ⟨2, ![1, a]⟩ ![1] hb x := by
  funext i
  obtain ⟨u, q, rfl⟩ : ∃ (u : Fin 1) (q : Fin a), i = ix2 u q := ⟨i 0, i 1, eq_ix2 i⟩
  rw [shapeCast_a_1a_apply]
  refine (broadcastInDim_apply _ hb x (ix2 u q) (ix1 q) (fun d => ?_)).symm
  match d with
  | ⟨0, _⟩ =>
    show q.val = if a = 1 then 0 else q.val
    split
    · have := q.isLt; omega
    · rfl

end Cert.LibRowOfVector

end
-- ==== Proof.LibHostBroadcast.lean ====
/-
  Two host broadcasts read at an entry.

  A one-row array [1, b] broadcast to [a, b] with both axes kept (dims = [0, 1]) reads, at (i, q), the row's entry
  (0, q): the unit axis reads index 0, the other axis its own coordinate (and when b = 1 that coordinate is 0 too).
  A scalar broadcast to any shape (dims = []) reads the scalar at every entry. These are the forms a whole-array
  reference builds a bias row and a constant array in.
-/
import Idealize.ShloMosaic.Lib.ValueIdx
import Idealize.ShloMosaic.Lib.Pipeline.Value

noncomputable section

namespace Cert.LibHostBroadcast

open Idealize.ShloMosaic Idealize.ShloMosaic.ValueIdx

/-- A one-row array broadcast down the rows (both axes kept) reads, at (i, q), the row's entry (0, q). -/
theorem bcast_rows_apply {α : Type} {a b : ℕ} (v : (⟨2, ![1, b]⟩ : Shape).Idx → α)
    (h : (⟨2, ![1, b]⟩ : Shape).BroadcastsInDim ⟨2, ![a, b]⟩ ![0, 1]) (i : Fin a) (q : Fin b) :
    broadcastInDim ⟨2, ![a, b]⟩ ![0, 1] h v (ix2 i q) = v (ix2 (0 : Fin 1) q) := by
  refine broadcastInDim_apply _ h v (ix2 i q) (ix2 (0 : Fin 1) q) fun d => ?_
  match d with
  | ⟨0, _⟩ => rfl
  | ⟨1, _⟩ =>
    show q.val = if b = 1 then 0 else q.val
    split
    · have := q.isLt; omega
    · rfl

/-- A scalar broadcast to an array reads the scalar at every entry. -/
theorem bcast_scalar_apply {α : Type} {t : Shape} (v : (⟨0, ![]⟩ : Shape).Idx → α)
    (h : (⟨0, ![]⟩ : Shape).BroadcastsInDim t ![]) (j : t.Idx) :
    broadcastInDim t ![] h v j = v ix0 :=
  broadcastInDim_apply _ h v j ix0 fun d => d.elim0

end Cert.LibHostBroadcast

end
-- ==== Proof.LibHostBiasRelu.lean ====
/-
  Bias and rectifier as a host program spells them, and a block of rows standing for the whole array.

  A whole-array program adds a bias vector b of length n to every row of an [a, n] array by broadcasting b to one row
  [1, n], that row down the a rows, adding, and taking the maximum with a broadcast zero. Entry (i, d) of the result is
  max(A(i, d) + b(d), 0): the bias-and-rectifier with the bias laid out as one row (the form a tiled kernel receives it
  in, by a reshape). And since entry (i, d) of that array uses row i of A only, a block of rows of A, rectified with a
  copy of the bias row, is that block of rows of the rectified whole array. Any extents; no finiteness is used.
-/
import proofs.«179234_j19267223289970_1_alg».proof.Proof.LibActivation
import proofs.«179234_j19267223289970_1_alg».proof.Proof.LibRowOfVector
import proofs.«179234_j19267223289970_1_alg».proof.Proof.LibHostBroadcast
import Idealize.ShloMosaic.Lib.ValueLayout

noncomputable section

namespace Cert.HostBiasRelu

open Idealize.ShloMosaic Idealize.ShloMosaic.ValueIdx Cert.Activation

/-- A vector broadcast to one row reads, at (0, d), the vector's entry d. -/
theorem biasRow_apply {α : Type} {n : Nat} (b : (⟨1, ![n]⟩ : Shape).Idx → α) (hb : (⟨1, ![n]⟩ : Shape).BroadcastsInDim ⟨2, ![1, n]⟩ ![1])
    (hs : (⟨1, ![n]⟩ : Shape).ShapeCasts ⟨2, ![1, n]⟩) (d : Fin n) :
    broadcastInDim ⟨2, ![1, n]⟩ ![1] hb b (ix2 (0 : Fin 1) d) = b (ix1 d) := by
  rw [← Cert.LibRowOfVector.row_of_vector b hs hb, shapeCast_a_1a_apply]

/-- The host's add-bias-and-floor-at-zero, with the bias broadcast from a vector, is the bias-and-rectifier with the
    bias laid out as one row. -/
theorem hostBiasRelu {a n : Nat} (A : FVec Ideal ⟨2, ![a, n]⟩ .f32) (b : FVec Ideal ⟨1, ![n]⟩ .f32)
    (h1 : (⟨2, ![1, n]⟩ : Shape).BroadcastsInDim ⟨2, ![a, n]⟩ ![0, 1])
    (h2 : (⟨1, ![n]⟩ : Shape).BroadcastsInDim ⟨2, ![1, n]⟩ ![1])
    (h0 : (⟨0, ![]⟩ : Shape).BroadcastsInDim ⟨2, ![a, n]⟩ ![])
    (hs : (⟨1, ![n]⟩ : Shape).ShapeCasts ⟨2, ![1, n]⟩) :
    maximumf (addf A (broadcastInDim ⟨2, ![a, n]⟩ ![0, 1] h1 (broadcastInDim ⟨2, ![1, n]⟩ ![1] h2 b)))
        (broadcastInDim ⟨2, ![a, n]⟩ ![] h0 (constant (F := Ideal) ⟨0, ![]⟩ .f32 0x00000000#32))
      = rectifiedRow A (shapeCast ⟨2, ![1, n]⟩ b hs) := by
  funext i
  obtain ⟨p, d, rfl⟩ : ∃ (p : Fin a) (d : Fin n), i = ix2 p d := ⟨i 0, i 1, eq_ix2 i⟩
  rw [rectifiedRow_apply, shapeCast_a_1a_apply]
  show max (A (ix2 p d) + broadcastInDim ⟨2, ![a, n]⟩ ![0, 1] h1 (broadcastInDim ⟨2, ![1, n]⟩ ![1] h2 b) (ix2 p d))
      (broadcastInDim ⟨2, ![a, n]⟩ ![] h0 (constant (F := Ideal) ⟨0, ![]⟩ .f32 0x00000000#32) (ix2 p d)) = _
  rw [Cert.LibHostBroadcast.bcast_rows_apply, Cert.LibHostBroadcast.bcast_scalar_apply, biasRow_apply b h2 hs d]
  rfl

/-- A row of the rectified array depends on its own row only: a block of rows, rectified with a copy of the bias row,
    is that block of the rectified whole array. -/
theorem rectifiedRow_of_rows {B M n : Nat} (ab : (⟨2, ![B, n]⟩ : Shape).Idx → EReal) (bb : (⟨2, ![1, n]⟩ : Shape).Idx → EReal)
    (A : (⟨2, ![M, n]⟩ : Shape).Idx → EReal) (b : (⟨2, ![1, n]⟩ : Shape).Idx → EReal) (p : Fin B) (d : Fin n) (i : Fin M)
    (hA : ab (ix2 p d) = A (ix2 i d)) (hb : bb (ix2 (0 : Fin 1) d) = b (ix2 (0 : Fin 1) d)) :
    rectifiedRow ab bb (ix2 p d) = rectifiedRow A b (ix2 i d) := by
  rw [rectifiedRow_apply, rectifiedRow_apply, hA, hb]

end Cert.HostBiasRelu

end
-- ==== Proof.Region1.lean ====
/-
  Launch 1: bias and rectifier over the aggregated messages, five blocks of 10000 rows.

  Grid point t loads rows 10000·t … 10000·t + 9999 of the aggregated array and the one-row bias, and writes back
  max(a + b, 0) as the same rows of the result. Entry (p, d) of that block uses a(10000·t + p, d) and b(0, d): it is
  entry (10000·t + p, d) of the bias-and-rectifier of the whole arrays. The five blocks tile the result.
-/
import proofs.«179234_j19267223289970_1_alg».proof.Proof.Gen.KernelIdeal.Frame
import proofs.«179234_j19267223289970_1_alg».proof.Proof.Bodies
import Idealize.ShloMosaic.Lib.Pipeline.Value
import proofs.«179234_j19267223289970_1_alg».proof.Proof.LibHostBiasRelu

set_option maxRecDepth 16384

noncomputable section

namespace Cert.KernelIdeal.Regions

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Activation
open Idealize.ShloMosaic.MatProd

variable (V : (c : Dev nD) → (b : Ref sig .tc) → Buf (Elt Ideal) ((c : Thread nD τ).loc b))

theorem zeros1 : (![0, 0] : Fin 2 → Nat) = fun _ => 0 := funext fun a => by fin_cases a <;> rfl

/-- The block index maps over the five grid points: the row-blocked windows sit at block (t, 0), the bias at (0, 0). -/
theorem blockIdx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What grid point t writes back is block t of the bias-and-rectifier of the whole arrays. -/
theorem flushed1 (c : Dev nD) (t : Fin cfg1.N) :
    (dat1 V c).flushed 2 t = ((cfg1.win 2).blk t).view.read (Elt Ideal) (rectifiedRow (V c main_v40) (V c main_v41)) := by
  show (cfg1.win 2).cut (grid1.coords t) ((dat1 V c).after 2 t) = _
  rw [after1_2]
  unfold out1_2
  rw [View.canon_unit_zero zeros1]
  simp only [View.ld_unit_zero (S := S10000x64) zeros1, View.ld_unit_zero (S := S1x64) zeros1]
  obtain ⟨e0, e1, e2, e3, e4, e5⟩ := blockIdx1 t
  have ht : t.val < 5 := t.isLt
  funext y
  refine (congrFun (Bodies.biasRelu1 _ _) y).trans ?_
  obtain ⟨p, q, rfl⟩ : ∃ (p : Fin 10000) (q : Fin 64), y = ix2 p q := ⟨y 0, y 1, eq_ix2 y⟩
  have hemb : ((cfg1.win 2).blk t).view.emb (ix2 p q) = ix2 (⟨t.val * 10000 + p.val, by omega⟩ : Fin 50000) q := by
    funext a; apply Fin.ext
    match a with
    | ⟨0, _⟩ => show win1_2.index t (0 : Fin 2) * 10000 + 1 * p.val = t.val * 10000 + p.val; omega
    | ⟨1, _⟩ => show win1_2.index t (1 : Fin 2) * 64 + 1 * q.val = q.val; omega
  refine Eq.trans ?_ (congrArg (rectifiedRow (V c main_v40) (V c main_v41)) hemb.symm)
  refine Cert.HostBiasRelu.rectifiedRow_of_rows (iblk1 V c 0 t) (iblk1 V c 1 t) (V c main_v40) (V c main_v41) p q ⟨t.val * 10000 + p.val, by omega⟩ ?_ ?_
  · show V c main_v40 (((cfg1.win 0).blk t).view.emb (ix2 p q)) = _
    refine congrArg _ (funext fun a => Fin.ext ?_)
    match a with
    | ⟨0, _⟩ => show win1_0.index t (0 : Fin 2) * 10000 + 1 * p.val = t.val * 10000 + p.val; omega
    | ⟨1, _⟩ => show win1_0.index t (1 : Fin 2) * 64 + 1 * q.val = q.val; omega
  · show V c main_v41 (((cfg1.win 1).blk t).view.emb (ix2 (0 : Fin 1) q)) = _
    refine congrArg _ (funext fun a => Fin.ext ?_)
    match a with
    | ⟨0, _⟩ => show win1_1.index t (0 : Fin 2) * 1 + 1 * 0 = 0; omega
    | ⟨1, _⟩ => show win1_1.index t (1 : Fin 2) * 64 + 1 * q.val = q.val; omega

/-- An index of the result array is in grid point t's block iff its row is among the block's 10000 rows. -/
theorem memBlock1 (t : Fin cfg1.N) (i : S50000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v42).slice (win1_2.rect t)).set ↔ _
  rw [View.set_slice_whole, Rect.mem_set_unit]
  exact Iff.rfl

/-- Every entry of the result array lies in the block of the grid point that holds its row. -/
theorem covered1 (i : S50000x64.Idx) : ∃ t : Fin cfg1.N, (cfg1.win 2).flush t = true ∧ i ∈ ((cfg1.win 2).blk t).view.set := by
  have hi0 : (i 0).val < 50000 := (i 0).isLt
  have hi1 : (i 1).val < 64 := (i 1).isLt
  let t : Fin cfg1.N := ⟨(i 0).val / 10000, by show (i 0).val / 10000 < 5; omega⟩
  obtain ⟨e0, e1, e2, e3, e4, e5⟩ := blockIdx1 t
  have et : t.val = (i 0).val / 10000 := rfl
  refine ⟨t, flush1_2 t, ?_⟩
  rw [memBlock1]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- After the launch the result array is the bias-and-rectifier of the input arrays as the launch found them. -/
theorem result1 (c : Dev nD) : (dat1 V c).arrAt 2 cfg1.N = rectifiedRow (V c main_v40) (V c main_v41) :=
  (dat1 V c).arrAt_eq_of_cover 2 (rectifiedRow (V c main_v40) (V c main_v41)) (fun t _ => flushed1 V c t) covered1

end Cert.KernelIdeal.Regions

end
-- ==== Proof.Region2.lean ====
/-
  Launch 2: a product of the hidden activations with a weight matrix, five blocks of 10000 rows.

  Grid point t loads rows 10000·t … 10000·t + 9999 of the left array and the whole weight matrix, and writes back the
  product of the two as rows 10000·t … of the result. Entry (p, q) of that block is the sum over k of
  x(10000·t + p, k) · w(k, q): entry (10000·t + p, q) of the product of the whole arrays. The five blocks tile the
  result, so after the launch the result array is the product of the two input arrays as the launch found them.
-/
import proofs.«179234_j19267223289970_1_alg».proof.Proof.Gen.KernelIdeal.Frame
import proofs.«179234_j19267223289970_1_alg».proof.Proof.Bodies
import Idealize.ShloMosaic.Lib.Pipeline.Value

set_option maxRecDepth 16384

noncomputable section

namespace Cert.KernelIdeal.Regions

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Activation
open Idealize.ShloMosaic.MatProd

variable (V : (c : Dev nD) → (b : Ref sig .tc) → Buf (Elt Ideal) ((c : Thread nD τ).loc b))

theorem zeros2 : (![0, 0] : Fin 2 → Nat) = fun _ => 0 := funext fun a => by fin_cases a <;> rfl

/-- The block index maps over the five grid points: the row-blocked windows sit at block (t, 0), the weights at (0, 0). -/
theorem blockIdx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What grid point t writes back is block t of the product of the whole arrays. -/
theorem flushed2 (c : Dev nD) (t : Fin cfg2.N) :
    (dat2 V c).flushed 2 t = ((cfg2.win 2).blk t).view.read (Elt Ideal) (matProd (V c main_v42) (V c main_arg4)) := by
  show (cfg2.win 2).cut (grid2.coords t) ((dat2 V c).after 2 t) = _
  rw [after2_2]
  unfold out2_2
  rw [View.canon_unit_zero zeros2]
  simp only [View.ld_unit_zero (S := S10000x64) zeros2, View.ld_unit_zero (S := S64x64) zeros2]
  obtain ⟨e0, e1, e2, e3, e4, e5⟩ := blockIdx2 t
  have ht : t.val < 5 := t.isLt
  funext y
  refine (congrFun (Bodies.product64a _ _) y).trans ?_
  obtain ⟨p, q, rfl⟩ : ∃ (p : Fin 10000) (q : Fin 64), y = ix2 p q := ⟨y 0, y 1, eq_ix2 y⟩
  have hemb : ((cfg2.win 2).blk t).view.emb (ix2 p q) = ix2 (⟨t.val * 10000 + p.val, by omega⟩ : Fin 50000) q := by
    funext a; apply Fin.ext
    match a with
    | ⟨0, _⟩ => show win2_2.index t (0 : Fin 2) * 10000 + 1 * p.val = t.val * 10000 + p.val; omega
    | ⟨1, _⟩ => show win2_2.index t (1 : Fin 2) * 64 + 1 * q.val = q.val; omega
  refine Eq.trans ?_ (congrArg (matProd (V c main_v42) (V c main_arg4)) hemb.symm)
  refine matProd_of_rows (iblk2 V c 0 t) (iblk2 V c 1 t) (V c main_v42) (V c main_arg4) p q ⟨t.val * 10000 + p.val, by omega⟩ (fun k => ?_) (fun k => ?_)
  · show V c main_v42 (((cfg2.win 0).blk t).view.emb (ix2 p k)) = _
    refine congrArg _ (funext fun a => Fin.ext ?_)
    match a with
    | ⟨0, _⟩ => show win2_0.index t (0 : Fin 2) * 10000 + 1 * p.val = t.val * 10000 + p.val; omega
    | ⟨1, _⟩ => show win2_0.index t (1 : Fin 2) * 64 + 1 * k.val = k.val; omega
  · show V c main_arg4 (((cfg2.win 1).blk t).view.emb (ix2 k q)) = _
    refine congrArg _ (funext fun a => Fin.ext ?_)
    match a with
    | ⟨0, _⟩ => show win2_1.index t (0 : Fin 2) * 64 + 1 * k.val = k.val; omega
    | ⟨1, _⟩ => show win2_1.index t (1 : Fin 2) * 64 + 1 * q.val = q.val; omega

/-- An index of the result array is in grid point t's block iff its row is among the block's 10000 rows. -/
theorem memBlock2 (t : Fin cfg2.N) (i : S50000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v43).slice (win2_2.rect t)).set ↔ _
  rw [View.set_slice_whole, Rect.mem_set_unit]
  exact Iff.rfl

/-- Every entry of the result array lies in the block of the grid point that holds its row. -/
theorem covered2 (i : S50000x64.Idx) : ∃ t : Fin cfg2.N, (cfg2.win 2).flush t = true ∧ i ∈ ((cfg2.win 2).blk t).view.set := by
  have hi0 : (i 0).val < 50000 := (i 0).isLt
  have hi1 : (i 1).val < 64 := (i 1).isLt
  let t : Fin cfg2.N := ⟨(i 0).val / 10000, by show (i 0).val / 10000 < 5; omega⟩
  obtain ⟨e0, e1, e2, e3, e4, e5⟩ := blockIdx2 t
  have et : t.val = (i 0).val / 10000 := rfl
  refine ⟨t, flush2_2 t, ?_⟩
  rw [memBlock2]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 64 ≤ (i 1).val ∧ (i 1).val < win2_2.index t (1 : Fin 2) * 64 + 64; omega

/-- After the launch the result array is the product of the input arrays as the launch found them. -/
theorem result2 (c : Dev nD) : (dat2 V c).arrAt 2 cfg2.N = matProd (V c main_v42) (V c main_arg4) :=
  (dat2 V c).arrAt_eq_of_cover 2 (matProd (V c main_v42) (V c main_arg4)) (fun t _ => flushed2 V c t) covered2

end Cert.KernelIdeal.Regions

end
-- ==== Proof.Region3.lean ====
/-
  Launch 3: bias and rectifier over the aggregated messages, five blocks of 10000 rows.

  Grid point t loads rows 10000·t … 10000·t + 9999 of the aggregated array and the one-row bias, and writes back
  max(a + b, 0) as the same rows of the result. Entry (p, d) of that block uses a(10000·t + p, d) and b(0, d): it is
  entry (10000·t + p, d) of the bias-and-rectifier of the whole arrays. The five blocks tile the result.
-/
import proofs.«179234_j19267223289970_1_alg».proof.Proof.Gen.KernelIdeal.Frame
import proofs.«179234_j19267223289970_1_alg».proof.Proof.Bodies
import Idealize.ShloMosaic.Lib.Pipeline.Value
import proofs.«179234_j19267223289970_1_alg».proof.Proof.LibHostBiasRelu

set_option maxRecDepth 16384

noncomputable section

namespace Cert.KernelIdeal.Regions

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Activation
open Idealize.ShloMosaic.MatProd

variable (V : (c : Dev nD) → (b : Ref sig .tc) → Buf (Elt Ideal) ((c : Thread nD τ).loc b))

theorem zeros3 : (![0, 0] : Fin 2 → Nat) = fun _ => 0 := funext fun a => by fin_cases a <;> rfl

/-- The block index maps over the five grid points: the row-blocked windows sit at block (t, 0), the bias at (0, 0). -/
theorem blockIdx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What grid point t writes back is block t of the bias-and-rectifier of the whole arrays. -/
theorem flushed3 (c : Dev nD) (t : Fin cfg3.N) :
    (dat3 V c).flushed 2 t = ((cfg3.win 2).blk t).view.read (Elt Ideal) (rectifiedRow (V c main_v56) (V c main_v57)) := by
  show (cfg3.win 2).cut (grid3.coords t) ((dat3 V c).after 2 t) = _
  rw [after3_2]
  unfold out3_2
  rw [View.canon_unit_zero zeros3]
  simp only [View.ld_unit_zero (S := S10000x64) zeros3, View.ld_unit_zero (S := S1x64) zeros3]
  obtain ⟨e0, e1, e2, e3, e4, e5⟩ := blockIdx3 t
  have ht : t.val < 5 := t.isLt
  funext y
  refine (congrFun (Bodies.biasRelu3 _ _) y).trans ?_
  obtain ⟨p, q, rfl⟩ : ∃ (p : Fin 10000) (q : Fin 64), y = ix2 p q := ⟨y 0, y 1, eq_ix2 y⟩
  have hemb : ((cfg3.win 2).blk t).view.emb (ix2 p q) = ix2 (⟨t.val * 10000 + p.val, by omega⟩ : Fin 50000) q := by
    funext a; apply Fin.ext
    match a with
    | ⟨0, _⟩ => show win3_2.index t (0 : Fin 2) * 10000 + 1 * p.val = t.val * 10000 + p.val; omega
    | ⟨1, _⟩ => show win3_2.index t (1 : Fin 2) * 64 + 1 * q.val = q.val; omega
  refine Eq.trans ?_ (congrArg (rectifiedRow (V c main_v56) (V c main_v57)) hemb.symm)
  refine Cert.HostBiasRelu.rectifiedRow_of_rows (iblk3 V c 0 t) (iblk3 V c 1 t) (V c main_v56) (V c main_v57) p q ⟨t.val * 10000 + p.val, by omega⟩ ?_ ?_
  · show V c main_v56 (((cfg3.win 0).blk t).view.emb (ix2 p q)) = _
    refine congrArg _ (funext fun a => Fin.ext ?_)
    match a with
    | ⟨0, _⟩ => show win3_0.index t (0 : Fin 2) * 10000 + 1 * p.val = t.val * 10000 + p.val; omega
    | ⟨1, _⟩ => show win3_0.index t (1 : Fin 2) * 64 + 1 * q.val = q.val; omega
  · show V c main_v57 (((cfg3.win 1).blk t).view.emb (ix2 (0 : Fin 1) q)) = _
    refine congrArg _ (funext fun a => Fin.ext ?_)
    match a with
    | ⟨0, _⟩ => show win3_1.index t (0 : Fin 2) * 1 + 1 * 0 = 0; omega
    | ⟨1, _⟩ => show win3_1.index t (1 : Fin 2) * 64 + 1 * q.val = q.val; omega

/-- An index of the result array is in grid point t's block iff its row is among the block's 10000 rows. -/
theorem memBlock3 (t : Fin cfg3.N) (i : S50000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v58).slice (win3_2.rect t)).set ↔ _
  rw [View.set_slice_whole, Rect.mem_set_unit]
  exact Iff.rfl

/-- Every entry of the result array lies in the block of the grid point that holds its row. -/
theorem covered3 (i : S50000x64.Idx) : ∃ t : Fin cfg3.N, (cfg3.win 2).flush t = true ∧ i ∈ ((cfg3.win 2).blk t).view.set := by
  have hi0 : (i 0).val < 50000 := (i 0).isLt
  have hi1 : (i 1).val < 64 := (i 1).isLt
  let t : Fin cfg3.N := ⟨(i 0).val / 10000, by show (i 0).val / 10000 < 5; omega⟩
  obtain ⟨e0, e1, e2, e3, e4, e5⟩ := blockIdx3 t
  have et : t.val = (i 0).val / 10000 := rfl
  refine ⟨t, flush3_2 t, ?_⟩
  rw [memBlock3]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 64 ≤ (i 1).val ∧ (i 1).val < win3_2.index t (1 : Fin 2) * 64 + 64; omega

/-- After the launch the result array is the bias-and-rectifier of the input arrays as the launch found them. -/
theorem result3 (c : Dev nD) : (dat3 V c).arrAt 2 cfg3.N = rectifiedRow (V c main_v56) (V c main_v57) :=
  (dat3 V c).arrAt_eq_of_cover 2 (rectifiedRow (V c main_v56) (V c main_v57)) (fun t _ => flushed3 V c t) covered3

end Cert.KernelIdeal.Regions

end
-- ==== Proof.Region4.lean ====
/-
  Launch 4: a product of the hidden activations with a weight matrix, five blocks of 10000 rows.

  Grid point t loads rows 10000·t … 10000·t + 9999 of the left array and the whole weight matrix, and writes back the
  product of the two as rows 10000·t … of the result. Entry (p, q) of that block is the sum over k of
  x(10000·t + p, k) · w(k, q): entry (10000·t + p, q) of the product of the whole arrays. The five blocks tile the
  result, so after the launch the result array is the product of the two input arrays as the launch found them.
-/
import proofs.«179234_j19267223289970_1_alg».proof.Proof.Gen.KernelIdeal.Frame
import proofs.«179234_j19267223289970_1_alg».proof.Proof.Bodies
import Idealize.ShloMosaic.Lib.Pipeline.Value

set_option maxRecDepth 16384

noncomputable section

namespace Cert.KernelIdeal.Regions

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Activation
open Idealize.ShloMosaic.MatProd

variable (V : (c : Dev nD) → (b : Ref sig .tc) → Buf (Elt Ideal) ((c : Thread nD τ).loc b))

theorem zeros4 : (![0, 0] : Fin 2 → Nat) = fun _ => 0 := funext fun a => by fin_cases a <;> rfl

/-- The block index maps over the five grid points: the row-blocked windows sit at block (t, 0), the weights at (0, 0). -/
theorem blockIdx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What grid point t writes back is block t of the product of the whole arrays. -/
theorem flushed4 (c : Dev nD) (t : Fin cfg4.N) :
    (dat4 V c).flushed 2 t = ((cfg4.win 2).blk t).view.read (Elt Ideal) (matProd (V c main_v58) (V c main_arg6)) := by
  show (cfg4.win 2).cut (grid4.coords t) ((dat4 V c).after 2 t) = _
  rw [after4_2]
  unfold out4_2
  rw [View.canon_unit_zero zeros4]
  simp only [View.ld_unit_zero (S := S10000x64) zeros4, View.ld_unit_zero (S := S64x64) zeros4]
  obtain ⟨e0, e1, e2, e3, e4, e5⟩ := blockIdx4 t
  have ht : t.val < 5 := t.isLt
  funext y
  refine (congrFun (Bodies.product64b _ _) y).trans ?_
  obtain ⟨p, q, rfl⟩ : ∃ (p : Fin 10000) (q : Fin 64), y = ix2 p q := ⟨y 0, y 1, eq_ix2 y⟩
  have hemb : ((cfg4.win 2).blk t).view.emb (ix2 p q) = ix2 (⟨t.val * 10000 + p.val, by omega⟩ : Fin 50000) q := by
    funext a; apply Fin.ext
    match a with
    | ⟨0, _⟩ => show win4_2.index t (0 : Fin 2) * 10000 + 1 * p.val = t.val * 10000 + p.val; omega
    | ⟨1, _⟩ => show win4_2.index t (1 : Fin 2) * 64 + 1 * q.val = q.val; omega
  refine Eq.trans ?_ (congrArg (matProd (V c main_v58) (V c main_arg6)) hemb.symm)
  refine matProd_of_rows (iblk4 V c 0 t) (iblk4 V c 1 t) (V c main_v58) (V c main_arg6) p q ⟨t.val * 10000 + p.val, by omega⟩ (fun k => ?_) (fun k => ?_)
  · show V c main_v58 (((cfg4.win 0).blk t).view.emb (ix2 p k)) = _
    refine congrArg _ (funext fun a => Fin.ext ?_)
    match a with
    | ⟨0, _⟩ => show win4_0.index t (0 : Fin 2) * 10000 + 1 * p.val = t.val * 10000 + p.val; omega
    | ⟨1, _⟩ => show win4_0.index t (1 : Fin 2) * 64 + 1 * k.val = k.val; omega
  · show V c main_arg6 (((cfg4.win 1).blk t).view.emb (ix2 k q)) = _
    refine congrArg _ (funext fun a => Fin.ext ?_)
    match a with
    | ⟨0, _⟩ => show win4_1.index t (0 : Fin 2) * 64 + 1 * k.val = k.val; omega
    | ⟨1, _⟩ => show win4_1.index t (1 : Fin 2) * 64 + 1 * q.val = q.val; omega

/-- An index of the result array is in grid point t's block iff its row is among the block's 10000 rows. -/
theorem memBlock4 (t : Fin cfg4.N) (i : S50000x64.Idx) :
    i ∈ ((cfg4.win 2).blk t).view.set ↔ ∀ a : Fin 2, win4_2.index t a * S10000x64.size a ≤ (i a).val ∧ (i a).val < win4_2.index t a * S10000x64.size a + S10000x64.size a := by
  show i ∈ ((View.whole main_v59).slice (win4_2.rect t)).set ↔ _
  rw [View.set_slice_whole, Rect.mem_set_unit]
  exact Iff.rfl

/-- Every entry of the result array lies in the block of the grid point that holds its row. -/
theorem covered4 (i : S50000x64.Idx) : ∃ t : Fin cfg4.N, (cfg4.win 2).flush t = true ∧ i ∈ ((cfg4.win 2).blk t).view.set := by
  have hi0 : (i 0).val < 50000 := (i 0).isLt
  have hi1 : (i 1).val < 64 := (i 1).isLt
  let t : Fin cfg4.N := ⟨(i 0).val / 10000, by show (i 0).val / 10000 < 5; omega⟩
  obtain ⟨e0, e1, e2, e3, e4, e5⟩ := blockIdx4 t
  have et : t.val = (i 0).val / 10000 := rfl
  refine ⟨t, flush4_2 t, ?_⟩
  rw [memBlock4]
  intro a
  match a with
  | ⟨0, _⟩ => show win4_2.index t (0 : Fin 2) * 10000 ≤ (i 0).val ∧ (i 0).val < win4_2.index t (0 : Fin 2) * 10000 + 10000; omega
  | ⟨1, _⟩ => show win4_2.index t (1 : Fin 2) * 64 ≤ (i 1).val ∧ (i 1).val < win4_2.index t (1 : Fin 2) * 64 + 64; omega

/-- After the launch the result array is the product of the input arrays as the launch found them. -/
theorem result4 (c : Dev nD) : (dat4 V c).arrAt 2 cfg4.N = matProd (V c main_v58) (V c main_arg6) :=
  (dat4 V c).arrAt_eq_of_cover 2 (matProd (V c main_v58) (V c main_arg6)) (fun t _ => flushed4 V c t) covered4

end Cert.KernelIdeal.Regions

end
-- ==== Proof.Region5.lean ====
/-
  Launch 5: bias and rectifier over the aggregated messages, five blocks of 10000 rows.

  Grid point t loads rows 10000·t … 10000·t + 9999 of the aggregated array and the one-row bias, and writes back
  max(a + b, 0) as the same rows of the result. Entry (p, d) of that block uses a(10000·t + p, d) and b(0, d): it is
  entry (10000·t + p, d) of the bias-and-rectifier of the whole arrays. The five blocks tile the result.
-/
import proofs.«179234_j19267223289970_1_alg».proof.Proof.Gen.KernelIdeal.Frame
import proofs.«179234_j19267223289970_1_alg».proof.Proof.Bodies
import Idealize.ShloMosaic.Lib.Pipeline.Value
import proofs.«179234_j19267223289970_1_alg».proof.Proof.LibHostBiasRelu

set_option maxRecDepth 16384

noncomputable section

namespace Cert.KernelIdeal.Regions

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Activation
open Idealize.ShloMosaic.MatProd

variable (V : (c : Dev nD) → (b : Ref sig .tc) → Buf (Elt Ideal) ((c : Thread nD τ).loc b))

theorem zeros5 : (![0, 0] : Fin 2 → Nat) = fun _ => 0 := funext fun a => by fin_cases a <;> rfl

/-- The block index maps over the five grid points: the row-blocked windows sit at block (t, 0), the bias at (0, 0). -/
theorem blockIdx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What grid point t writes back is block t of the bias-and-rectifier of the whole arrays. -/
theorem flushed5 (c : Dev nD) (t : Fin cfg5.N) :
    (dat5 V c).flushed 2 t = ((cfg5.win 2).blk t).view.read (Elt Ideal) (rectifiedRow (V c main_v72) (V c main_v73)) := by
  show (cfg5.win 2).cut (grid5.coords t) ((dat5 V c).after 2 t) = _
  rw [after5_2]
  unfold out5_2
  rw [View.canon_unit_zero zeros5]
  simp only [View.ld_unit_zero (S := S10000x64) zeros5, View.ld_unit_zero (S := S1x64) zeros5]
  obtain ⟨e0, e1, e2, e3, e4, e5⟩ := blockIdx5 t
  have ht : t.val < 5 := t.isLt
  funext y
  refine (congrFun (Bodies.biasRelu5 _ _) y).trans ?_
  obtain ⟨p, q, rfl⟩ : ∃ (p : Fin 10000) (q : Fin 64), y = ix2 p q := ⟨y 0, y 1, eq_ix2 y⟩
  have hemb : ((cfg5.win 2).blk t).view.emb (ix2 p q) = ix2 (⟨t.val * 10000 + p.val, by omega⟩ : Fin 50000) q := by
    funext a; apply Fin.ext
    match a with
    | ⟨0, _⟩ => show win5_2.index t (0 : Fin 2) * 10000 + 1 * p.val = t.val * 10000 + p.val; omega
    | ⟨1, _⟩ => show win5_2.index t (1 : Fin 2) * 64 + 1 * q.val = q.val; omega
  refine Eq.trans ?_ (congrArg (rectifiedRow (V c main_v72) (V c main_v73)) hemb.symm)
  refine Cert.HostBiasRelu.rectifiedRow_of_rows (iblk5 V c 0 t) (iblk5 V c 1 t) (V c main_v72) (V c main_v73) p q ⟨t.val * 10000 + p.val, by omega⟩ ?_ ?_
  · show V c main_v72 (((cfg5.win 0).blk t).view.emb (ix2 p q)) = _
    refine congrArg _ (funext fun a => Fin.ext ?_)
    match a with
    | ⟨0, _⟩ => show win5_0.index t (0 : Fin 2) * 10000 + 1 * p.val = t.val * 10000 + p.val; omega
    | ⟨1, _⟩ => show win5_0.index t (1 : Fin 2) * 64 + 1 * q.val = q.val; omega
  · show V c main_v73 (((cfg5.win 1).blk t).view.emb (ix2 (0 : Fin 1) q)) = _
    refine congrArg _ (funext fun a => Fin.ext ?_)
    match a with
    | ⟨0, _⟩ => show win5_1.index t (0 : Fin 2) * 1 + 1 * 0 = 0; omega
    | ⟨1, _⟩ => show win5_1.index t (1 : Fin 2) * 64 + 1 * q.val = q.val; omega

/-- An index of the result array is in grid point t's block iff its row is among the block's 10000 rows. -/
theorem memBlock5 (t : Fin cfg5.N) (i : S50000x64.Idx) :
    i ∈ ((cfg5.win 2).blk t).view.set ↔ ∀ a : Fin 2, win5_2.index t a * S10000x64.size a ≤ (i a).val ∧ (i a).val < win5_2.index t a * S10000x64.size a + S10000x64.size a := by
  show i ∈ ((View.whole main_v74).slice (win5_2.rect t)).set ↔ _
  rw [View.set_slice_whole, Rect.mem_set_unit]
  exact Iff.rfl

/-- Every entry of the result array lies in the block of the grid point that holds its row. -/
theorem covered5 (i : S50000x64.Idx) : ∃ t : Fin cfg5.N, (cfg5.win 2).flush t = true ∧ i ∈ ((cfg5.win 2).blk t).view.set := by
  have hi0 : (i 0).val < 50000 := (i 0).isLt
  have hi1 : (i 1).val < 64 := (i 1).isLt
  let t : Fin cfg5.N := ⟨(i 0).val / 10000, by show (i 0).val / 10000 < 5; omega⟩
  obtain ⟨e0, e1, e2, e3, e4, e5⟩ := blockIdx5 t
  have et : t.val = (i 0).val / 10000 := rfl
  refine ⟨t, flush5_2 t, ?_⟩
  rw [memBlock5]
  intro a
  match a with
  | ⟨0, _⟩ => show win5_2.index t (0 : Fin 2) * 10000 ≤ (i 0).val ∧ (i 0).val < win5_2.index t (0 : Fin 2) * 10000 + 10000; omega
  | ⟨1, _⟩ => show win5_2.index t (1 : Fin 2) * 64 ≤ (i 1).val ∧ (i 1).val < win5_2.index t (1 : Fin 2) * 64 + 64; omega

/-- After the launch the result array is the bias-and-rectifier of the input arrays as the launch found them. -/
theorem result5 (c : Dev nD) : (dat5 V c).arrAt 2 cfg5.N = rectifiedRow (V c main_v72) (V c main_v73) :=
  (dat5 V c).arrAt_eq_of_cover 2 (rectifiedRow (V c main_v72) (V c main_v73)) (fun t _ => flushed5 V c t) covered5

end Cert.KernelIdeal.Regions

end
-- ==== Proof.LibSoftplusSpellings.lean ====
/-
  The softplus log(1 + e^v) of an extended real, in the two spellings a vector program and a host program give it.

  jax.nn.softplus lowers to logaddexp(v, 0): with d = v − 0, the result is v + 0 where d ≠ d (a guard for a value that is
  not a number, which no extended real is) and max(v, 0) + log1p(exp(−|d|)) elsewhere. A vector program spells the
  guard with the ordered predicate and the sign change as 0 − |d|; a host program spells the guard with the unordered
  predicate and the sign change as a negation. On the extended reals the two predicates are one comparison and
  0 − a = −a, so the two spellings are one function of v, at every extended real (no finiteness is needed). The zero is
  kept as the float word both programs write, so each spelling meets its program's term without evaluating a literal.
-/
import Idealize.ShloMosaic.PureOps.Ideal
import Idealize.ShloMosaic.PureOps.Ideal.Laws

noncomputable section

namespace Cert.Softplus

open Idealize.ShloMosaic

/-- The zero the programs write: the f32 word of all zero bits. -/
abbrev zeroW : EReal := Ideal.ofBits .f32 0x00000000#32

/-- The softplus as a vector program spells it (ordered guard, sign change by subtraction from zero; |d| is
    max(d, −d)). -/
def softplus (v : EReal) : EReal :=
  Scalar.select (Ideal.cmp .one (v - zeroW) (v - zeroW)) (v + zeroW)
    (max v zeroW + Ideal.log1p (Ideal.exp (zeroW - max (v - zeroW) (-(v - zeroW)))))

/-- The softplus as a host program spells it (unordered guard, sign change by negation). -/
def softplusHost (v : EReal) : EReal :=
  Scalar.select (Ideal.cmp .une (v - zeroW) (v - zeroW)) (v + zeroW)
    (max v zeroW + Ideal.log1p (Ideal.exp (-(max (v - zeroW) (-(v - zeroW))))))

/-- The two spellings are one function: the two predicates are the same comparison on extended reals, and
    0 − a = −a. -/
theorem softplus_eq (v : EReal) : softplus v = softplusHost v := by
  unfold softplus softplusHost
  have hz : zeroW = 0 := Ideal.ofBits_zero_f32
  rw [hz, zero_sub]
  rfl

end Cert.Softplus

end
-- ==== Proof.Head.lean ====
/-
  The output layer on the extended reals, as functions of whole arrays, and the fact that lets a block of rows stand for
  the whole array.

  The kernel multiplies the hidden activations by ONE three-column matrix [W_shift | W_weight] and adds ONE three-entry
  bias row; columns 0 and 1 are the shifts, column 2 goes through the softplus and is the weight. Entry (i, q) of the
  three-column array uses row i of the activations only.
-/
import proofs.«179234_j19267223289970_1_alg».proof.Proof.LibMatProd
import proofs.«179234_j19267223289970_1_alg».proof.Proof.LibSoftplusSpellings
import Idealize.ShloMosaic.PureOps.Ideal
import Idealize.ShloMosaic.PureOps.Ideal.Laws
import Idealize.ShloMosaic.Lib.ValueIdx

noncomputable section

namespace Cert.Head

open Idealize.ShloMosaic Idealize.ShloMosaic.ValueIdx Idealize.ShloMosaic.MatProd Cert.Softplus

variable {M : Nat}

/-- Hidden activations times the three-column matrix, plus the bias row. -/
def affine (h : (⟨2, ![M, 64]⟩ : Shape).Idx → EReal) (wc : (⟨2, ![64, 3]⟩ : Shape).Idx → EReal)
    (bc : (⟨2, ![1, 3]⟩ : Shape).Idx → EReal) : (⟨2, ![M, 3]⟩ : Shape).Idx → EReal :=
  fun j => matProd h wc j + bc (ix2 (0 : Fin 1) (j 1))

/-- Columns 0 and 1: the shifts. -/
def shifts (h : (⟨2, ![M, 64]⟩ : Shape).Idx → EReal) (wc : (⟨2, ![64, 3]⟩ : Shape).Idx → EReal)
    (bc : (⟨2, ![1, 3]⟩ : Shape).Idx → EReal) : (⟨2, ![M, 2]⟩ : Shape).Idx → EReal :=
  fun j => affine h wc bc (ix2 (j 0) (⟨(j 1).val, by have h2 : (j 1).val < 2 := (j 1).isLt; omega⟩ : Fin 3))

/-- Column 2 through the softplus: the weight, as a one-column array. -/
def weight (h : (⟨2, ![M, 64]⟩ : Shape).Idx → EReal) (wc : (⟨2, ![64, 3]⟩ : Shape).Idx → EReal)
    (bc : (⟨2, ![1, 3]⟩ : Shape).Idx → EReal) : (⟨2, ![M, 1]⟩ : Shape).Idx → EReal :=
  fun j => softplus (affine h wc bc (ix2 (j 0) (2 : Fin 3)))

/-- A row of the output layer depends on its own row of the hidden activations only. -/
theorem affine_of_rows {B : Nat} (hb : (⟨2, ![B, 64]⟩ : Shape).Idx → EReal) (h : (⟨2, ![M, 64]⟩ : Shape).Idx → EReal)
    (wb wc : (⟨2, ![64, 3]⟩ : Shape).Idx → EReal) (bb bc : (⟨2, ![1, 3]⟩ : Shape).Idx → EReal)
    (p : Fin B) (i : Fin M) (q : Fin 3)
    (hh : ∀ k : Fin 64, hb (ix2 p k) = h (ix2 i k)) (hw : ∀ k : Fin 64, wb (ix2 k q) = wc (ix2 k q))
    (hbias : bb (ix2 (0 : Fin 1) q) = bc (ix2 (0 : Fin 1) q)) :
    affine hb wb bb (ix2 p q) = affine h wc bc (ix2 i q) := by
  show matProd hb wb (ix2 p q) + bb (ix2 (0 : Fin 1) q) = matProd h wc (ix2 i q) + bc (ix2 (0 : Fin 1) q)
  rw [matProd_of_rows hb wb h wc p q i hh hw, hbias]

end Cert.Head

end
-- ==== Proof.HeadBody.lean ====
/-
  The output body on a block of rows: the three columns, the two shift columns, and the weight column.

  The body multiplies its block of hidden activations by the three-column matrix (the change of float format is the
  identity), adds the bias row, stores columns 0 and 1, and stores the softplus of column 2.
-/
import proofs.«179234_j19267223289970_1_alg».proof.Proof.Bodies
import proofs.«179234_j19267223289970_1_alg».proof.Proof.Head

noncomputable section

namespace Cert.KernelIdeal.Bodies

open Idealize.ShloMosaic Idealize.ShloMosaic.ValueIdx Cert.KernelIdeal Cert.KernelIdeal.Gen Cert.Activation
open Idealize.ShloMosaic.MatProd Idealize.ShloMosaic.DotPlain

/-- All three columns: the block times the matrix, plus the bias row. -/
theorem affineBody (x0 : Vec Ideal S10000x64 .f32) (x1 : Vec Ideal S64x3 .f32) (x2 : Vec Ideal S1x3 .f32) :
    k6_pay1 (F := Ideal) x0 x1 x2 = Cert.Head.affine x0 x1 x2 := by
  funext j
  obtain ⟨p, q, rfl⟩ : ∃ (p : Fin 10000) (q : Fin 3), j = ix2 p q := ⟨j 0, j 1, eq_ix2 j⟩
  unfold k6_pay1
  show matmul dot_S10000x64_S64x3_S10000x3_1_0_0_1_n_n none
        (truncf .bf16 (shapeCast S10000x64 x0 shapeCasts_S10000x64_S10000x64) bitsLt_bf16_f32)
        (truncf .bf16 (shapeCast S64x3 x1 shapeCasts_S64x3_S64x3) bitsLt_bf16_f32)
        (constant (F := Ideal) S10000x3 .f32 0x00000000#32) (ix2 p q)
      + broadcastTo S10000x3 (shapeCast S1x3 x2 shapeCasts_S1x3_S1x3) broadcasts_S1x3_S10000x3 (ix2 p q)
      = matProd x0 x1 (ix2 p q) + x2 (ix2 (0 : Fin 1) q)
  rw [broadcastTo_1b_ab_apply, shapeCast_self, shapeCast_self, shapeCast_self]
  exact congrArg (· + x2 (ix2 (0 : Fin 1) q)) (MatProd.matmul_zero_apply plain_64_3 none x0 x1 (ix2 p q))

/-- Columns 0 and 1. -/
theorem shiftsBody (x0 : Vec Ideal S10000x64 .f32) (x1 : Vec Ideal S64x3 .f32) (x2 : Vec Ideal S1x3 .f32) :
    k6_pay2 (F := Ideal) x0 x1 x2 = Cert.Head.shifts x0 x1 x2 := by
  funext j
  obtain ⟨p, q, rfl⟩ : ∃ (p : Fin 10000) (q : Fin 2), j = ix2 p q := ⟨j 0, j 1, eq_ix2 j⟩
  have hq : q.val < 3 := by have := q.isLt; omega
  show extractStridedSlice S10000x2 ![0, 0] (k6_pay1 (F := Ideal) x0 x1 x2) slices_S10000x3_o0_0_S10000x2 (ix2 p q)
      = Cert.Head.affine x0 x1 x2 (ix2 p (⟨q.val, hq⟩ : Fin 3))
  rw [affineBody]
  exact extractStridedSlice_apply _ _ _ (ix2 p q) (ix2 p (⟨q.val, hq⟩ : Fin 3)) (fun a => by
    match a with
    | ⟨0, _⟩ => show p.val = 0 + p.val; omega
    | ⟨1, _⟩ => show q.val = 0 + q.val; omega)

/-- Column 2 through the softplus. -/
theorem weightBody (x0 : Vec Ideal S10000x64 .f32) (x1 : Vec Ideal S64x3 .f32) (x2 : Vec Ideal S1x3 .f32) :
    k6_pay3 (F := Ideal) x0 x1 x2 = Cert.Head.weight x0 x1 x2 := by
  funext j
  obtain ⟨p, u, rfl⟩ : ∃ (p : Fin 10000) (u : Fin 1), j = ix2 p u := ⟨j 0, j 1, eq_ix2 j⟩
  have hs : extractStridedSlice S10000x1 ![0, 2] (k6_pay1 (F := Ideal) x0 x1 x2) slices_S10000x3_o0_2_S10000x1 (ix2 p u)
      = Cert.Head.affine x0 x1 x2 (ix2 p (2 : Fin 3)) := by
    rw [affineBody]
    exact extractStridedSlice_apply _ _ _ (ix2 p u) (ix2 p (2 : Fin 3)) (fun a => by
      match a with
      | ⟨0, _⟩ => show p.val = 0 + p.val; omega
      | ⟨1, _⟩ => show 2 = 2 + u.val; have := u.isLt; omega)
  show Cert.Softplus.softplus (extractStridedSlice S10000x1 ![0, 2] (k6_pay1 (F := Ideal) x0 x1 x2) slices_S10000x3_o0_2_S10000x1 (ix2 p u))
      = Cert.Softplus.softplus (Cert.Head.affine x0 x1 x2 (ix2 p (2 : Fin 3)))
  rw [hs]

end Cert.KernelIdeal.Bodies

end
-- ==== Proof.Region6.lean ====
/-
  Launch 6: the output layer, five blocks of 10000 rows, two result arrays.

  Grid point t loads rows 10000·t … 10000·t + 9999 of the hidden activations, the whole three-column matrix and the
  bias row, and writes back the two shift columns of those rows to one result and the softplus of the third column to
  the other. Each entry uses its own row of the activations only, so each block is a block of the output layer of the
  whole arrays, and the five blocks tile each result.
-/
import proofs.«179234_j19267223289970_1_alg».proof.Proof.Gen.KernelIdeal.Frame
import proofs.«179234_j19267223289970_1_alg».proof.Proof.Bodies
import Idealize.ShloMosaic.Lib.Pipeline.Value
import proofs.«179234_j19267223289970_1_alg».proof.Proof.HeadBody

set_option maxRecDepth 16384

noncomputable section

namespace Cert.KernelIdeal.Regions

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Activation
open Idealize.ShloMosaic.MatProd

variable (V : (c : Dev nD) → (b : Ref sig .tc) → Buf (Elt Ideal) ((c : Thread nD τ).loc b))

theorem zeros6 : (![0, 0] : Fin 2 → Nat) = fun _ => 0 := funext fun a => by fin_cases a <;> rfl

/-- The block index maps over the five grid points: the three row-blocked windows sit at block (t, 0), the matrix and
    the bias row at (0, 0). -/
theorem blockIdx6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0
    ∧ win6_4.index t (0 : Fin 2) = t.val ∧ win6_4.index t (1 : Fin 2) = 0 :=
  (by decide +kernel : ∀ t : Fin grid6.N, _)

/-- What grid point t writes back to the shifts array is block t of the shifts of the whole arrays. -/
theorem flushed6_3 (c : Dev nD) (t : Fin cfg6.N) :
    (dat6 V c).flushed 3 t = ((cfg6.win 3).blk t).view.read (Elt Ideal) (Cert.Head.shifts (V c main_v74) (V c main_v75) (V c main_v77)) := by
  show (cfg6.win 3).cut (grid6.coords t) ((dat6 V c).after 3 t) = _
  rw [after6_3]
  unfold out6_3
  rw [View.canon_unit_zero zeros6]
  simp only [View.ld_unit_zero (S := S10000x64) zeros6, View.ld_unit_zero (S := S64x3) zeros6, View.ld_unit_zero (S := S1x3) zeros6]
  obtain ⟨e0, e1, e2, e3, e4, e5, e6, e7, e8, e9⟩ := blockIdx6 t
  have ht : t.val < 5 := t.isLt
  funext y
  refine (congrFun (Bodies.shiftsBody _ _ _) y).trans ?_
  obtain ⟨p, q, rfl⟩ : ∃ (p : Fin 10000) (q : Fin 2), y = ix2 p q := ⟨y 0, y 1, eq_ix2 y⟩
  have hemb : ((cfg6.win 3).blk t).view.emb (ix2 p q) = ix2 (⟨t.val * 10000 + p.val, by omega⟩ : Fin 50000) q := by
    funext a; apply Fin.ext
    match a with
    | ⟨0, _⟩ => show win6_3.index t (0 : Fin 2) * 10000 + 1 * p.val = t.val * 10000 + p.val; omega
    | ⟨1, _⟩ => show win6_3.index t (1 : Fin 2) * 2 + 1 * q.val = q.val; omega
  refine Eq.trans ?_ (congrArg (Cert.Head.shifts (V c main_v74) (V c main_v75) (V c main_v77)) hemb.symm)
  have hq : q.val < 3 := by have := q.isLt; omega
  show Cert.Head.affine (iblk6 V c 0 t) (iblk6 V c 1 t) (iblk6 V c 2 t) (ix2 p (⟨q.val, hq⟩ : Fin 3))
      = Cert.Head.affine (V c main_v74) (V c main_v75) (V c main_v77) (ix2 (⟨t.val * 10000 + p.val, by omega⟩ : Fin 50000) (⟨q.val, hq⟩ : Fin 3))
  · refine Cert.Head.affine_of_rows (iblk6 V c 0 t) (V c main_v74) (iblk6 V c 1 t) (V c main_v75) (iblk6 V c 2 t) (V c main_v77) p ⟨t.val * 10000 + p.val, by omega⟩ (⟨q.val, hq⟩ : Fin 3) (fun k => ?_) (fun k => ?_) ?_
    · show V c main_v74 (((cfg6.win 0).blk t).view.emb (ix2 p k)) = _
      refine congrArg _ (funext fun a => Fin.ext ?_)
      match a with
      | ⟨0, _⟩ => show win6_0.index t (0 : Fin 2) * 10000 + 1 * p.val = t.val * 10000 + p.val; omega
      | ⟨1, _⟩ => show win6_0.index t (1 : Fin 2) * 64 + 1 * k.val = k.val; omega
    · show V c main_v75 (((cfg6.win 1).blk t).view.emb (ix2 k (⟨q.val, hq⟩ : Fin 3))) = _
      refine congrArg _ (funext fun a => Fin.ext ?_)
      match a with
      | ⟨0, _⟩ => show win6_1.index t (0 : Fin 2) * 64 + 1 * k.val = k.val; omega
      | ⟨1, _⟩ => show win6_1.index t (1 : Fin 2) * 3 + 1 * ((⟨q.val, hq⟩ : Fin 3) : Fin 3).val = ((⟨q.val, hq⟩ : Fin 3) : Fin 3).val; omega
    · show V c main_v77 (((cfg6.win 2).blk t).view.emb (ix2 (0 : Fin 1) (⟨q.val, hq⟩ : Fin 3))) = _
      refine congrArg _ (funext fun a => Fin.ext ?_)
      match a with
      | ⟨0, _⟩ => show win6_2.index t (0 : Fin 2) * 1 + 1 * 0 = 0; omega
      | ⟨1, _⟩ => show win6_2.index t (1 : Fin 2) * 3 + 1 * ((⟨q.val, hq⟩ : Fin 3) : Fin 3).val = ((⟨q.val, hq⟩ : Fin 3) : Fin 3).val; omega

/-- An index of the shifts array is in grid point t's block iff its row is among the block's 10000 rows. -/
theorem memBlock6_3 (t : Fin cfg6.N) (i : S50000x2.Idx) :
    i ∈ ((cfg6.win 3).blk t).view.set ↔ ∀ a : Fin 2, win6_3.index t a * S10000x2.size a ≤ (i a).val ∧ (i a).val < win6_3.index t a * S10000x2.size a + S10000x2.size a := by
  show i ∈ ((View.whole main_v78_0).slice (win6_3.rect t)).set ↔ _
  rw [View.set_slice_whole, Rect.mem_set_unit]
  exact Iff.rfl

/-- Every entry of the shifts array lies in the block of the grid point that holds its row. -/
theorem covered6_3 (i : S50000x2.Idx) : ∃ t : Fin cfg6.N, (cfg6.win 3).flush t = true ∧ i ∈ ((cfg6.win 3).blk t).view.set := by
  have hi0 : (i 0).val < 50000 := (i 0).isLt
  have hi1 : (i 1).val < 2 := (i 1).isLt
  let t : Fin cfg6.N := ⟨(i 0).val / 10000, by show (i 0).val / 10000 < 5; omega⟩
  obtain ⟨e0, e1, e2, e3, e4, e5, e6, e7, e8, e9⟩ := blockIdx6 t
  have et : t.val = (i 0).val / 10000 := rfl
  refine ⟨t, flush6_3 t, ?_⟩
  rw [memBlock6_3]
  intro a
  match a with
  | ⟨0, _⟩ => show win6_3.index t (0 : Fin 2) * 10000 ≤ (i 0).val ∧ (i 0).val < win6_3.index t (0 : Fin 2) * 10000 + 10000; omega
  | ⟨1, _⟩ => show win6_3.index t (1 : Fin 2) * 2 ≤ (i 1).val ∧ (i 1).val < win6_3.index t (1 : Fin 2) * 2 + 2; omega

/-- After the launch the shifts array is the shifts of the input arrays as the launch found them. -/
theorem result6_3 (c : Dev nD) : (dat6 V c).arrAt 3 cfg6.N = Cert.Head.shifts (V c main_v74) (V c main_v75) (V c main_v77) :=
  (dat6 V c).arrAt_eq_of_cover 3 (Cert.Head.shifts (V c main_v74) (V c main_v75) (V c main_v77)) (fun t _ => flushed6_3 V c t) covered6_3

/-- What grid point t writes back to the weight array is block t of the weight of the whole arrays. -/
theorem flushed6_4 (c : Dev nD) (t : Fin cfg6.N) :
    (dat6 V c).flushed 4 t = ((cfg6.win 4).blk t).view.read (Elt Ideal) (Cert.Head.weight (V c main_v74) (V c main_v75) (V c main_v77)) := by
  show (cfg6.win 4).cut (grid6.coords t) ((dat6 V c).after 4 t) = _
  rw [after6_4]
  unfold out6_4
  rw [View.canon_unit_zero zeros6]
  simp only [View.ld_unit_zero (S := S10000x64) zeros6, View.ld_unit_zero (S := S64x3) zeros6, View.ld_unit_zero (S := S1x3) zeros6]
  obtain ⟨e0, e1, e2, e3, e4, e5, e6, e7, e8, e9⟩ := blockIdx6 t
  have ht : t.val < 5 := t.isLt
  funext y
  refine (congrFun (Bodies.weightBody _ _ _) y).trans ?_
  obtain ⟨p, q, rfl⟩ : ∃ (p : Fin 10000) (q : Fin 1), y = ix2 p q := ⟨y 0, y 1, eq_ix2 y⟩
  have hemb : ((cfg6.win 4).blk t).view.emb (ix2 p q) = ix2 (⟨t.val * 10000 + p.val, by omega⟩ : Fin 50000) q := by
    funext a; apply Fin.ext
    match a with
    | ⟨0, _⟩ => show win6_4.index t (0 : Fin 2) * 10000 + 1 * p.val = t.val * 10000 + p.val; omega
    | ⟨1, _⟩ => show win6_4.index t (1 : Fin 2) * 1 + 1 * q.val = q.val; omega
  refine Eq.trans ?_ (congrArg (Cert.Head.weight (V c main_v74) (V c main_v75) (V c main_v77)) hemb.symm)
  show Cert.Softplus.softplus (Cert.Head.affine (iblk6 V c 0 t) (iblk6 V c 1 t) (iblk6 V c 2 t) (ix2 p (2 : Fin 3)))
      = Cert.Softplus.softplus (Cert.Head.affine (V c main_v74) (V c main_v75) (V c main_v77) (ix2 (⟨t.val * 10000 + p.val, by omega⟩ : Fin 50000) (2 : Fin 3)))
  refine congrArg Cert.Softplus.softplus ?_
  · refine Cert.Head.affine_of_rows (iblk6 V c 0 t) (V c main_v74) (iblk6 V c 1 t) (V c main_v75) (iblk6 V c 2 t) (V c main_v77) p ⟨t.val * 10000 + p.val, by omega⟩ (2 : Fin 3) (fun k => ?_) (fun k => ?_) ?_
    · show V c main_v74 (((cfg6.win 0).blk t).view.emb (ix2 p k)) = _
      refine congrArg _ (funext fun a => Fin.ext ?_)
      match a with
      | ⟨0, _⟩ => show win6_0.index t (0 : Fin 2) * 10000 + 1 * p.val = t.val * 10000 + p.val; omega
      | ⟨1, _⟩ => show win6_0.index t (1 : Fin 2) * 64 + 1 * k.val = k.val; omega
    · show V c main_v75 (((cfg6.win 1).blk t).view.emb (ix2 k (2 : Fin 3))) = _
      refine congrArg _ (funext fun a => Fin.ext ?_)
      match a with
      | ⟨0, _⟩ => show win6_1.index t (0 : Fin 2) * 64 + 1 * k.val = k.val; omega
      | ⟨1, _⟩ => show win6_1.index t (1 : Fin 2) * 3 + 1 * ((2 : Fin 3) : Fin 3).val = ((2 : Fin 3) : Fin 3).val; omega
    · show V c main_v77 (((cfg6.win 2).blk t).view.emb (ix2 (0 : Fin 1) (2 : Fin 3))) = _
      refine congrArg _ (funext fun a => Fin.ext ?_)
      match a with
      | ⟨0, _⟩ => show win6_2.index t (0 : Fin 2) * 1 + 1 * 0 = 0; omega
      | ⟨1, _⟩ => show win6_2.index t (1 : Fin 2) * 3 + 1 * ((2 : Fin 3) : Fin 3).val = ((2 : Fin 3) : Fin 3).val; omega

/-- An index of the weight array is in grid point t's block iff its row is among the block's 10000 rows. -/
theorem memBlock6_4 (t : Fin cfg6.N) (i : S50000x1.Idx) :
    i ∈ ((cfg6.win 4).blk t).view.set ↔ ∀ a : Fin 2, win6_4.index t a * S10000x1.size a ≤ (i a).val ∧ (i a).val < win6_4.index t a * S10000x1.size a + S10000x1.size a := by
  show i ∈ ((View.whole main_v78_1).slice (win6_4.rect t)).set ↔ _
  rw [View.set_slice_whole, Rect.mem_set_unit]
  exact Iff.rfl

/-- Every entry of the weight array lies in the block of the grid point that holds its row. -/
theorem covered6_4 (i : S50000x1.Idx) : ∃ t : Fin cfg6.N, (cfg6.win 4).flush t = true ∧ i ∈ ((cfg6.win 4).blk t).view.set := by
  have hi0 : (i 0).val < 50000 := (i 0).isLt
  have hi1 : (i 1).val < 1 := (i 1).isLt
  let t : Fin cfg6.N := ⟨(i 0).val / 10000, by show (i 0).val / 10000 < 5; omega⟩
  obtain ⟨e0, e1, e2, e3, e4, e5, e6, e7, e8, e9⟩ := blockIdx6 t
  have et : t.val = (i 0).val / 10000 := rfl
  refine ⟨t, flush6_4 t, ?_⟩
  rw [memBlock6_4]
  intro a
  match a with
  | ⟨0, _⟩ => show win6_4.index t (0 : Fin 2) * 10000 ≤ (i 0).val ∧ (i 0).val < win6_4.index t (0 : Fin 2) * 10000 + 10000; omega
  | ⟨1, _⟩ => show win6_4.index t (1 : Fin 2) * 1 ≤ (i 1).val ∧ (i 1).val < win6_4.index t (1 : Fin 2) * 1 + 1; omega

/-- After the launch the weight array is the weight of the input arrays as the launch found them. -/
theorem result6_4 (c : Dev nD) : (dat6 V c).arrAt 4 cfg6.N = Cert.Head.weight (V c main_v74) (V c main_v75) (V c main_v77) :=
  (dat6 V c).arrAt_eq_of_cover 4 (Cert.Head.weight (V c main_v74) (V c main_v75) (V c main_v77)) (fun t _ => flushed6_4 V c t) covered6_4

end Cert.KernelIdeal.Regions

end
-- ==== Proof.LibConcatCols.lean ====
/-
  Two matrices with the same rows laid side by side, read at an index.

  The concatenation of an [n, a] and an [n, b] matrix along axis 1 is the [n, a + b] matrix whose row r is the first
  matrix's row r followed by the second's: entry (r, k) is the first matrix at (r, k) when k < a, and the second at
  (r, k − a) otherwise.
-/
import Idealize.ShloMosaic.Lib.Pipeline.Value
import Idealize.ShloMosaic.Lib.ValueIdx

noncomputable section

namespace Idealize.ShloMosaic.ConcatCols

open Idealize.ShloMosaic Idealize.ShloMosaic.ValueIdx

variable {α : Type}

/-- Entry (r, k) of two matrices laid side by side: the left one below column a, the right one from column a on. -/
theorem concat_cols_apply {n a b t : ℕ} (ht : t = a + b) (x₁ : (⟨2, ![n, a]⟩ : Shape).Idx → α) (x₂ : (⟨2, ![n, b]⟩ : Shape).Idx → α)
    (h : Shape.Concatenates [(⟨2, ![n, a]⟩ : Shape), (⟨2, ![n, b]⟩ : Shape)] (⟨2, ![n, t]⟩ : Shape) 1) (r : Fin n) (k : Fin t) :
    concatenate (⟨2, ![n, t]⟩ : Shape) 1 [⟨(⟨2, ![n, a]⟩ : Shape), x₁⟩, ⟨(⟨2, ![n, b]⟩ : Shape), x₂⟩] h (ix2 r k)
      = if hk : k.val < a then x₁ (ix2 r ⟨k.val, hk⟩) else x₂ (ix2 r ⟨k.val - a, by have := k.isLt; omega⟩) := by
  split
  · rename_i hk
    exact concatenate_pair_apply_left (1 : Fin 2) x₁ x₂ h (ix2 r k) rfl (ix2 r ⟨k.val, hk⟩) (fun ax => by
      match ax with
      | ⟨0, _⟩ => rfl
      | ⟨1, _⟩ => rfl)
  · rename_i hk
    exact concatenate_pair_apply_right (1 : Fin 2) x₁ x₂ h (ix2 r k) rfl rfl (ix2 r ⟨k.val - a, by have := k.isLt; omega⟩)
      (fun ax hax => by
        match ax with
        | ⟨0, _⟩ => rfl
        | ⟨1, _⟩ => exact absurd rfl hax)
      (by show (k.val - a) + a = k.val; omega)

end Idealize.ShloMosaic.ConcatCols

end
-- ==== Proof.RefStages.lean ====
/-
  The reference program's stages, read as the same whole-array functions the kernel's launches compute.

  A host matrix product with plain dimension numbers is the product. A bias vector broadcast to a row and then down the
  rows, added, and floored at zero is the bias-and-rectifier with the bias laid out as one row. The two output
  products against W_shift and W_weight, with their two biases, are columns 0–1 and column 2 of the one product against
  [W_shift | W_weight] with the bias [b_shift, b_weight]: entry (k, q) of the concatenated matrix is W_shift(k, q) for
  q < 2 and W_weight(k, 0) for q = 2, and likewise for the bias. The softplus is one function in its two spellings.
-/
import proofs.«179234_j19267223289970_1_alg».proof.Proof.Gen.ReferenceIdeal.Read
import proofs.«179234_j19267223289970_1_alg».proof.Proof.Head
import proofs.«179234_j19267223289970_1_alg».proof.Proof.LibConcatCols
import proofs.«179234_j19267223289970_1_alg».proof.Proof.LibHostBiasRelu
import Idealize.ShloMosaic.Lib.ValueLayout

noncomputable section

namespace Cert.ReferenceIdeal.Stages

open Idealize.ShloMosaic Idealize.ShloMosaic.ValueIdx Cert.ReferenceIdeal Cert.ReferenceIdeal.Read Cert.Activation
open Idealize.ShloMosaic.MatProd Idealize.ShloMosaic.DotPlain
open Cert.ReferenceIdeal.Facts₀ Cert.ReferenceIdeal.Facts

theorem plain_128_64 : IsPlain dot_S50000x128_S128x64_S50000x64_1_0_0_1_n_n := ⟨rfl, rfl, rfl, rfl, rfl, rfl⟩
theorem plain_64_64 : IsPlain dot_S50000x64_S64x64_S50000x64_1_0_0_1_n_n := ⟨rfl, rfl, rfl, rfl, rfl, rfl⟩
theorem plain_64_2 : IsPlain dot_S50000x64_S64x2_S50000x2_1_0_0_1_n_n := ⟨rfl, rfl, rfl, rfl, rfl, rfl⟩
theorem plain_64_1 : IsPlain dot_S50000x64_S64x1_S50000x1_1_0_0_1_n_n := ⟨rfl, rfl, rfl, rfl, rfl, rfl⟩

/-- The three host products of the hidden layers are products. -/
theorem product128 (x : FVec Ideal S50000x128 .f32) (w : FVec Ideal S128x64 .f32) :
    Host.dotGeneral dot_S50000x128_S128x64_S50000x64_1_0_0_1_n_n none x w = matProd x w :=
  dotGeneral_eq plain_128_64 none x w

theorem product64 (x : FVec Ideal S50000x64 .f32) (w : FVec Ideal S64x64 .f32) :
    Host.dotGeneral dot_S50000x64_S64x64_S50000x64_1_0_0_1_n_n none x w = matProd x w :=
  dotGeneral_eq plain_64_64 none x w

/-- Bias added on every row and floored at zero, the bias broadcast from a vector: the bias-and-rectifier with the
    bias laid out as one row. -/
theorem biasRelu (a : FVec Ideal S50000x64 .f32) (b : FVec Ideal S64 .f32) (hs : S64.ShapeCasts S1x64) :
    maximumf (addf a (broadcastInDim S50000x64 ![0, 1] bcast_S1x64_S50000x64_0_1 (broadcastInDim S1x64 ![1] bcast_S64_S1x64_1 b)))
        (broadcastInDim S50000x64 ![] bcast_S_S50000x64 (constant (F := Ideal) S_ .f32 0x00000000#32))
      = rectifiedRow a (shapeCast S1x64 b hs) :=
  Cert.HostBiasRelu.hostBiasRelu a b bcast_S1x64_S50000x64_0_1 bcast_S64_S1x64_1 bcast_S_S50000x64 hs

/-- Columns 0 and 1 of the one product against [W_shift | W_weight] with the bias [b_shift, b_weight] are the product
    against W_shift plus b_shift. -/
theorem shifts_eq (h : FVec Ideal S50000x64 .f32) (w8 : FVec Ideal S64x2 .f32) (w10 : FVec Ideal S64x1 .f32)
    (b9 : FVec Ideal S2 .f32) (b11 : FVec Ideal S1 .f32)
    (hc : Shape.Concatenates [S64x2, S64x1] (⟨2, ![64, 3]⟩ : Shape) 1)
    (hb : Shape.Concatenates [S2, S1] (⟨1, ![3]⟩ : Shape) 0)
    (hs : (⟨1, ![3]⟩ : Shape).ShapeCasts ⟨2, ![1, 3]⟩) (hs2 : S2.ShapeCasts S1x2) :
    addf (Host.dotGeneral dot_S50000x64_S64x2_S50000x2_1_0_0_1_n_n none h w8)
        (broadcastInDim S50000x2 ![0, 1] bcast_S1x2_S50000x2_0_1 (broadcastInDim S1x2 ![1] bcast_S2_S1x2_1 b9))
      = Cert.Head.shifts h (concatenate (⟨2, ![64, 3]⟩ : Shape) 1 [⟨S64x2, w8⟩, ⟨S64x1, w10⟩] hc)
          (shapeCast ⟨2, ![1, 3]⟩ (concatenate (⟨1, ![3]⟩ : Shape) 0 [⟨S2, b9⟩, ⟨S1, b11⟩] hb) hs) := by
  funext i
  obtain ⟨p, q, rfl⟩ : ∃ (p : Fin 50000) (q : Fin 2), i = ix2 p q := ⟨i 0, i 1, eq_ix2 i⟩
  have hq : q.val < 3 := by have := q.isLt; omega
  have hq2 : q.val < 2 := q.isLt
  show Host.dotGeneral dot_S50000x64_S64x2_S50000x2_1_0_0_1_n_n none h w8 (ix2 p q)
        + broadcastInDim S50000x2 ![0, 1] bcast_S1x2_S50000x2_0_1 (broadcastInDim S1x2 ![1] bcast_S2_S1x2_1 b9) (ix2 p q)
      = (∑ k : Fin 64, h (ix2 p k) * concatenate (⟨2, ![64, 3]⟩ : Shape) 1 [⟨S64x2, w8⟩, ⟨S64x1, w10⟩] hc (ix2 k (⟨q.val, hq⟩ : Fin 3)))
        + shapeCast ⟨2, ![1, 3]⟩ (concatenate (⟨1, ![3]⟩ : Shape) 0 [⟨S2, b9⟩, ⟨S1, b11⟩] hb) hs (ix2 (0 : Fin 1) (⟨q.val, hq⟩ : Fin 3))
  rw [DotPlain.dotGeneral_apply plain_64_2, Cert.LibHostBroadcast.bcast_rows_apply, Cert.HostBiasRelu.biasRow_apply b9 bcast_S2_S1x2_1 hs2 q,
    shapeCast_a_1a_apply]
  congr 1
  · refine Finset.sum_congr rfl fun k _ => ?_
    rw [Idealize.ShloMosaic.ConcatCols.concat_cols_apply (a := 2) (b := 1) rfl w8 w10 hc k (⟨q.val, hq⟩ : Fin 3),
      dif_pos (show (⟨q.val, hq⟩ : Fin 3).val < 2 from hq2)]
  · exact (concatenate_pair_apply_left (0 : Fin 1) b9 b11 hb (ix1 (⟨q.val, hq⟩ : Fin 3)) rfl (ix1 q) (fun a => by
      match a with
      | ⟨0, _⟩ => rfl)).symm

/-- Column 2 of the one product, plus the third bias entry, is the product against W_weight plus b_weight. -/
theorem weightColumn_eq (h : FVec Ideal S50000x64 .f32) (w8 : FVec Ideal S64x2 .f32) (w10 : FVec Ideal S64x1 .f32)
    (b9 : FVec Ideal S2 .f32) (b11 : FVec Ideal S1 .f32)
    (hc : Shape.Concatenates [S64x2, S64x1] (⟨2, ![64, 3]⟩ : Shape) 1)
    (hb : Shape.Concatenates [S2, S1] (⟨1, ![3]⟩ : Shape) 0)
    (hs : (⟨1, ![3]⟩ : Shape).ShapeCasts ⟨2, ![1, 3]⟩) (hs1 : S1.ShapeCasts S1x1) (p : Fin 50000) (u : Fin 1) :
    addf (Host.dotGeneral dot_S50000x64_S64x1_S50000x1_1_0_0_1_n_n none h w10)
        (broadcastInDim S50000x1 ![0, 1] bcast_S1x1_S50000x1_0_1 (broadcastInDim S1x1 ![1] bcast_S1_S1x1_1 b11)) (ix2 p u)
      = Cert.Head.affine h (concatenate (⟨2, ![64, 3]⟩ : Shape) 1 [⟨S64x2, w8⟩, ⟨S64x1, w10⟩] hc)
          (shapeCast ⟨2, ![1, 3]⟩ (concatenate (⟨1, ![3]⟩ : Shape) 0 [⟨S2, b9⟩, ⟨S1, b11⟩] hb) hs) (ix2 p (2 : Fin 3)) := by
  have hu : u.val = 0 := by have := u.isLt; omega
  show Host.dotGeneral dot_S50000x64_S64x1_S50000x1_1_0_0_1_n_n none h w10 (ix2 p u)
        + broadcastInDim S50000x1 ![0, 1] bcast_S1x1_S50000x1_0_1 (broadcastInDim S1x1 ![1] bcast_S1_S1x1_1 b11) (ix2 p u)
      = (∑ k : Fin 64, h (ix2 p k) * concatenate (⟨2, ![64, 3]⟩ : Shape) 1 [⟨S64x2, w8⟩, ⟨S64x1, w10⟩] hc (ix2 k (2 : Fin 3)))
        + shapeCast ⟨2, ![1, 3]⟩ (concatenate (⟨1, ![3]⟩ : Shape) 0 [⟨S2, b9⟩, ⟨S1, b11⟩] hb) hs (ix2 (0 : Fin 1) (2 : Fin 3))
  rw [DotPlain.dotGeneral_apply plain_64_1, Cert.LibHostBroadcast.bcast_rows_apply, Cert.HostBiasRelu.biasRow_apply b11 bcast_S1_S1x1_1 hs1 u,
    shapeCast_a_1a_apply]
  congr 1
  · refine Finset.sum_congr rfl fun k _ => ?_
    rw [Idealize.ShloMosaic.ConcatCols.concat_cols_apply (a := 2) (b := 1) rfl w8 w10 hc k (2 : Fin 3),
      dif_neg (show ¬ (2 : Fin 3).val < 2 from by decide)]
    exact congrArg (fun e => h (ix2 p k) * w10 (ix2 k e)) (Fin.ext hu)
  · refine (congrArg b11 ?_).trans (concatenate_pair_apply_right (0 : Fin 1) b9 b11 hb (ix1 (2 : Fin 3)) rfl rfl (ix1 (0 : Fin 1))
      (fun a ha => by
        match a with
        | ⟨0, _⟩ => exact absurd rfl ha)
      (by show 0 + 2 = 2; rfl)).symm
    funext a
    match a with
    | ⟨0, _⟩ => exact Fin.ext hu

/-- The weight result: the host's softplus of the product against W_weight plus b_weight is the kernel's softplus of
    column 2. -/
theorem weight_eq (h : FVec Ideal S50000x64 .f32) (w8 : FVec Ideal S64x2 .f32) (w10 : FVec Ideal S64x1 .f32)
    (b9 : FVec Ideal S2 .f32) (b11 : FVec Ideal S1 .f32)
    (hc : Shape.Concatenates [S64x2, S64x1] (⟨2, ![64, 3]⟩ : Shape) 1)
    (hb : Shape.Concatenates [S2, S1] (⟨1, ![3]⟩ : Shape) 0)
    (hs : (⟨1, ![3]⟩ : Shape).ShapeCasts ⟨2, ![1, 3]⟩) (hs1 : S1.ShapeCasts S1x1)
    (x : FVec Ideal S50000x1 .f32)
    (hx : x = addf (Host.dotGeneral dot_S50000x64_S64x1_S50000x1_1_0_0_1_n_n none h w10)
        (broadcastInDim S50000x1 ![0, 1] bcast_S1x1_S50000x1_0_1 (broadcastInDim S1x1 ![1] bcast_S1_S1x1_1 b11))) :
    (fun j => Cert.Softplus.softplusHost (x j))
      = Cert.Head.weight h (concatenate (⟨2, ![64, 3]⟩ : Shape) 1 [⟨S64x2, w8⟩, ⟨S64x1, w10⟩] hc)
          (shapeCast ⟨2, ![1, 3]⟩ (concatenate (⟨1, ![3]⟩ : Shape) 0 [⟨S2, b9⟩, ⟨S1, b11⟩] hb) hs) := by
  funext i
  obtain ⟨p, u, rfl⟩ : ∃ (p : Fin 50000) (u : Fin 1), i = ix2 p u := ⟨i 0, i 1, eq_ix2 i⟩
  show Cert.Softplus.softplusHost (x (ix2 p u)) = Cert.Softplus.softplus (Cert.Head.affine h _ _ (ix2 p (2 : Fin 3)))
  rw [hx, weightColumn_eq h w8 w10 b9 b11 hc hb hs hs1 p u, Cert.Softplus.softplus_eq]

/-- The host's softplus function, entry by entry, is the host spelling of the scalar softplus. -/
theorem hostSoftplus_apply (x : FVec Ideal S50000x1 .f32) (j : S50000x1.Idx) :
    select (cmpf .une (subf x (broadcastInDim S50000x1 ![] bcast_S_S50000x1 (constant (F := Ideal) S_ .f32 0x00000000#32)))
        (subf x (broadcastInDim S50000x1 ![] bcast_S_S50000x1 (constant (F := Ideal) S_ .f32 0x00000000#32))))
      (addf x (broadcastInDim S50000x1 ![] bcast_S_S50000x1 (constant (F := Ideal) S_ .f32 0x00000000#32)))
      (addf (maximumf x (broadcastInDim S50000x1 ![] bcast_S_S50000x1 (constant (F := Ideal) S_ .f32 0x00000000#32)))
        (Host.log1p (Host.exp (Host.negf (Host.absf
          (subf x (broadcastInDim S50000x1 ![] bcast_S_S50000x1 (constant (F := Ideal) S_ .f32 0x00000000#32)))))))) j
      = Cert.Softplus.softplusHost (x j) := rfl

/-- The reference's shifts stage is columns 0 and 1 of the joined output layer over its third layer's activations. -/
theorem shiftsStage (x0 : FVec Ideal S50000x128 .f32) (x1 : IVec S2x800000 32) (x2 : FVec Ideal S128x64 .f32) (x3 : FVec Ideal S64 .f32)
    (x4 : FVec Ideal S64x64 .f32) (x5 : FVec Ideal S64 .f32) (x6 : FVec Ideal S64x64 .f32) (x7 : FVec Ideal S64 .f32)
    (x8 : FVec Ideal S64x2 .f32) (x9 : FVec Ideal S2 .f32) (x10 : FVec Ideal S64x1 .f32) (x11 : FVec Ideal S1 .f32)
    (hc : Shape.Concatenates [S64x2, S64x1] (⟨2, ![64, 3]⟩ : Shape) 1)
    (hb : Shape.Concatenates [S2, S1] (⟨1, ![3]⟩ : Shape) 0)
    (hs : (⟨1, ![3]⟩ : Shape).ShapeCasts ⟨2, ![1, 3]⟩) :
    val_main_v84 (F := Ideal) x0 x1 x2 x3 x4 x5 x6 x7 x8 x9
      = Cert.Head.shifts (val_main_v80 (F := Ideal) x0 x1 x2 x3 x4 x5 x6 x7)
          (concatenate (⟨2, ![64, 3]⟩ : Shape) 1 [⟨S64x2, x8⟩, ⟨S64x1, x10⟩] hc)
          (shapeCast ⟨2, ![1, 3]⟩ (concatenate (⟨1, ![3]⟩ : Shape) 0 [⟨S2, x9⟩, ⟨S1, x11⟩] hb) hs) :=
  shifts_eq (val_main_v80 (F := Ideal) x0 x1 x2 x3 x4 x5 x6 x7) x8 x10 x9 x11 hc hb hs rfl

/-- The reference's softplus stage is the weight column of the joined output layer over its third layer's activations. -/
theorem weightStage (x0 : FVec Ideal S50000x128 .f32) (x1 : IVec S2x800000 32) (x2 : FVec Ideal S128x64 .f32) (x3 : FVec Ideal S64 .f32)
    (x4 : FVec Ideal S64x64 .f32) (x5 : FVec Ideal S64 .f32) (x6 : FVec Ideal S64x64 .f32) (x7 : FVec Ideal S64 .f32)
    (x8 : FVec Ideal S64x2 .f32) (x9 : FVec Ideal S2 .f32) (x10 : FVec Ideal S64x1 .f32) (x11 : FVec Ideal S1 .f32)
    (hc : Shape.Concatenates [S64x2, S64x1] (⟨2, ![64, 3]⟩ : Shape) 1)
    (hb : Shape.Concatenates [S2, S1] (⟨1, ![3]⟩ : Shape) 0)
    (hs : (⟨1, ![3]⟩ : Shape).ShapeCasts ⟨2, ![1, 3]⟩) :
    val_main_v89 (F := Ideal) x0 x1 x2 x3 x4 x5 x6 x7 x10 x11
      = Cert.Head.weight (val_main_v80 (F := Ideal) x0 x1 x2 x3 x4 x5 x6 x7)
          (concatenate (⟨2, ![64, 3]⟩ : Shape) 1 [⟨S64x2, x8⟩, ⟨S64x1, x10⟩] hc)
          (shapeCast ⟨2, ![1, 3]⟩ (concatenate (⟨1, ![3]⟩ : Shape) 0 [⟨S2, x9⟩, ⟨S1, x11⟩] hb) hs) := by
  refine Eq.trans ?_ (weight_eq (val_main_v80 (F := Ideal) x0 x1 x2 x3 x4 x5 x6 x7) x8 x10 x9 x11 hc hb hs rfl
    (val_main_v88 (F := Ideal) x0 x1 x2 x3 x4 x5 x6 x7 x10 x11) rfl)
  funext j
  exact hostSoftplus_apply (val_main_v88 (F := Ideal) x0 x1 x2 x3 x4 x5 x6 x7 x10 x11) j

end Cert.ReferenceIdeal.Stages

end
-- ==== Proof.Chain.lean ====
/-
  The kernel program's two results are the reference program's, as functions of the arguments.

  Walk the program's segments in order. Each product launch leaves the product of its two input arrays, which is the
  reference's host product; each stretch between launches is, operation for operation, the reference's gather of the
  product's rows at the source nodes, scaling by the per-edge normalisation and scatter-add into the target nodes, so
  it leaves the reference's aggregated messages once its inputs are the reference's; each bias launch leaves the
  bias-and-rectifier, which is the reference's add, broadcast and maximum. After three layers the output launch leaves
  columns 0–1 of the one product against [W_shift | W_weight] plus the joined bias — the reference's product against
  W_shift plus b_shift — and the softplus of column 2 — the reference's softplus of the product against W_weight plus
  b_weight —, and the last stretch flattens the one-column weight array exactly as the reference does.
-/
import proofs.«179234_j19267223289970_1_alg».proof.Proof.Carried
import proofs.«179234_j19267223289970_1_alg».proof.Proof.Region0
import proofs.«179234_j19267223289970_1_alg».proof.Proof.Region1
import proofs.«179234_j19267223289970_1_alg».proof.Proof.Region2
import proofs.«179234_j19267223289970_1_alg».proof.Proof.Region3
import proofs.«179234_j19267223289970_1_alg».proof.Proof.Region4
import proofs.«179234_j19267223289970_1_alg».proof.Proof.Region5
import proofs.«179234_j19267223289970_1_alg».proof.Proof.Region6
import proofs.«179234_j19267223289970_1_alg».proof.Proof.RefStages

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen
open Cert.ReferenceIdeal.Read

variable (m : (ℓ : Loc nD τ sig) → Buf (Elt Ideal) ℓ) (ρ : Dev nD → PrngReg) (c : Dev nD)

local macro "skip_host " ops:ident : tactic => `(tactic| (
  refine StableHlo.after_of_forall_not_mem _ _ (List.forall_iff_forall_mem.mp ?_)
  simp only [$ops:ident, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-- The first product launch leaves the reference's first product. -/
theorem prod1 : W2 m ρ c (Proc.devRef .tc main_v27) = val_main_v27 (F := Ideal) (m ((c : Thread nD τ).loc main_arg0)) (m ((c : Thread nD τ).loc main_arg2)) := by
  refine (W2_arr m ρ c 2).trans ((Regions.result0 (V1 m ρ) c).trans ?_)
  show MatProd.matProd (W1 m ρ c (Proc.devRef .tc main_arg0)) (W1 m ρ c (Proc.devRef .tc main_arg2)) = _
  rw [w1_arg0 m ρ c, w1_arg2 m ρ c]
  exact (Cert.ReferenceIdeal.Stages.product128 _ _).symm

/-! ### Layer 1 -/

/-- After the stretch before the bias launch: the aggregated messages are the reference's, and the bias is its vector
    laid out as one row. -/
theorem agg1 : W3 m ρ c (Proc.devRef .tc main_v40) = val_main_v40 (F := Ideal) (m ((c : Thread nD τ).loc main_arg0)) (m ((c : Thread nD τ).loc main_arg1)) (m ((c : Thread nD τ).loc main_arg2)) := by
  show StableHlo.after hostOps1 (W2 m ρ c) (Proc.devRef .tc main_v40) = _
  after_results_simp
  rw [prod1 m ρ c, w2_v3 m ρ c, w2_v6 m ρ c, w2_v26 m ρ c]
  rfl

theorem biasRow1 : W3 m ρ c (Proc.devRef .tc main_v41) = shapeCast S1x64 (m ((c : Thread nD τ).loc main_arg3)) shapeCasts_S64_S1x64 := by
  show StableHlo.after hostOps1 (W2 m ρ c) (Proc.devRef .tc main_v41) = _
  after_results_simp
  rw [w2_arg3 m ρ c]
  rfl

/-- After the bias launch: the layer's activations are the reference's. -/
theorem act1 : W4 m ρ c (Proc.devRef .tc main_v42) = val_main_v44 (F := Ideal) (m ((c : Thread nD τ).loc main_arg0)) (m ((c : Thread nD τ).loc main_arg1)) (m ((c : Thread nD τ).loc main_arg2)) (m ((c : Thread nD τ).loc main_arg3)) := by
  refine (W4_arr m ρ c 2).trans ((Regions.result1 (V3 m ρ) c).trans ?_)
  show Cert.Activation.rectifiedRow (W3 m ρ c (Proc.devRef .tc main_v40)) (W3 m ρ c (Proc.devRef .tc main_v41)) = _
  rw [agg1 m ρ c, biasRow1 m ρ c]
  exact (Cert.ReferenceIdeal.Stages.biasRelu _ _ shapeCasts_S64_S1x64).symm

/-- The second product launch leaves the reference's second product. -/
theorem prod2 : W5 m ρ c (Proc.devRef .tc main_v43) = val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W5_arr m ρ c 2).trans ((Regions.result2 (V4 m ρ) c).trans ?_)
  show MatProd.matProd (W4 m ρ c (Proc.devRef .tc main_v42)) (W4 m ρ c (Proc.devRef .tc main_arg4)) = _
  rw [act1 m ρ c, w4_arg4 m ρ c]
  exact (Cert.ReferenceIdeal.Stages.product64 _ _).symm

/-! ### Layer 2 -/

/-- After the stretch before the bias launch: the aggregated messages are the reference's, and the bias is its vector
    laid out as one row. -/
theorem agg2 : W6 m ρ c (Proc.devRef .tc main_v56) = val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps3 (W5 m ρ c) (Proc.devRef .tc main_v56) = _
  after_results_simp
  rw [prod2 m ρ c, w5_v3 m ρ c, w5_v6 m ρ c, w5_v26 m ρ c]
  rfl

theorem biasRow2 : W6 m ρ c (Proc.devRef .tc main_v57) = shapeCast S1x64 (m ((c : Thread nD τ).loc main_arg5)) shapeCasts_S64_S1x64 := by
  show StableHlo.after hostOps3 (W5 m ρ c) (Proc.devRef .tc main_v57) = _
  after_results_simp
  rw [w5_arg5 m ρ c]
  rfl

/-- After the bias launch: the layer's activations are the reference's. -/
theorem act2 : W7 m ρ c (Proc.devRef .tc main_v58) = val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W7_arr m ρ c 2).trans ((Regions.result3 (V6 m ρ) c).trans ?_)
  show Cert.Activation.rectifiedRow (W6 m ρ c (Proc.devRef .tc main_v56)) (W6 m ρ c (Proc.devRef .tc main_v57)) = _
  rw [agg2 m ρ c, biasRow2 m ρ c]
  exact (Cert.ReferenceIdeal.Stages.biasRelu _ _ shapeCasts_S64_S1x64).symm

/-- The third product launch leaves the reference's third product. -/
theorem prod3 : W8 m ρ c (Proc.devRef .tc main_v59) = val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W8_arr m ρ c 2).trans ((Regions.result4 (V7 m ρ) c).trans ?_)
  show MatProd.matProd (W7 m ρ c (Proc.devRef .tc main_v58)) (W7 m ρ c (Proc.devRef .tc main_arg6)) = _
  rw [act2 m ρ c, w7_arg6 m ρ c]
  exact (Cert.ReferenceIdeal.Stages.product64 _ _).symm

/-! ### Layer 3 -/

/-- After the stretch before the bias launch: the aggregated messages are the reference's, and the bias is its vector
    laid out as one row. -/
theorem agg3 : W9 m ρ c (Proc.devRef .tc main_v72) = val_main_v76 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps5 (W8 m ρ c) (Proc.devRef .tc main_v72) = _
  after_results_simp
  rw [prod3 m ρ c, w8_v3 m ρ c, w8_v6 m ρ c, w8_v26 m ρ c]
  rfl

theorem biasRow3 : W9 m ρ c (Proc.devRef .tc main_v73) = shapeCast S1x64 (m ((c : Thread nD τ).loc main_arg7)) shapeCasts_S64_S1x64 := by
  show StableHlo.after hostOps5 (W8 m ρ c) (Proc.devRef .tc main_v73) = _
  after_results_simp
  rw [w8_arg7 m ρ c]
  rfl

/-- After the bias launch: the layer's activations are the reference's. -/
theorem act3 : W10 m ρ c (Proc.devRef .tc main_v74) = val_main_v80 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W10_arr m ρ c 2).trans ((Regions.result5 (V9 m ρ) c).trans ?_)
  show Cert.Activation.rectifiedRow (W9 m ρ c (Proc.devRef .tc main_v72)) (W9 m ρ c (Proc.devRef .tc main_v73)) = _
  rw [agg3 m ρ c, biasRow3 m ρ c]
  exact (Cert.ReferenceIdeal.Stages.biasRelu _ _ shapeCasts_S64_S1x64).symm

/-! ### The output layer -/

/-- The stretch before the output launch joins the two weight matrices side by side and the two biases end to end. -/
theorem joinedWeights : W11 m ρ c (Proc.devRef .tc main_v75)
    = concatenate S64x3 1 [⟨S64x2, (m ((c : Thread nD τ).loc main_arg8))⟩, ⟨S64x1, (m ((c : Thread nD τ).loc main_arg10))⟩] concatenates_S64x2_S64x1_S64x3_d1 := by
  show StableHlo.after hostOps6 (W10 m ρ c) (Proc.devRef .tc main_v75) = _
  after_results_simp
  rw [w10_arg8 m ρ c, w10_arg10 m ρ c]
  try rfl

theorem joinedBias : W11 m ρ c (Proc.devRef .tc main_v77)
    = shapeCast S1x3 (concatenate S3 0 [⟨S2, (m ((c : Thread nD τ).loc main_arg9))⟩, ⟨S1, (m ((c : Thread nD τ).loc main_arg11))⟩] concatenates_S2_S1_S3_d0) shapeCasts_S3_S1x3 := by
  show StableHlo.after hostOps6 (W10 m ρ c) (Proc.devRef .tc main_v77) = _
  after_results
  rw [w10_arg9 m ρ c, w10_arg11 m ρ c]
  try rfl

theorem act3' : W11 m ρ c (Proc.devRef .tc main_v74) = val_main_v80 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine Eq.trans (b := W10 m ρ c (Proc.devRef .tc main_v74)) ?_ (act3 m ρ c)
  skip_host hostOps6

/-- The shifts result is the reference's. -/
theorem shiftsResult : W13 m ρ c (Proc.devRef .tc main_v78_0) = val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine Eq.trans (b := W12 m ρ c (Proc.devRef .tc main_v78_0)) (by skip_host hostOps7) ?_
  refine (W12_arr m ρ c 3).trans ((Regions.result6_3 (V11 m ρ) c).trans ?_)
  show Cert.Head.shifts (W11 m ρ c (Proc.devRef .tc main_v74)) (W11 m ρ c (Proc.devRef .tc main_v75)) (W11 m ρ c (Proc.devRef .tc main_v77)) = _
  rw [act3' m ρ c, joinedWeights m ρ c, joinedBias m ρ c]
  exact (Cert.ReferenceIdeal.Stages.shiftsStage (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) concatenates_S64x2_S64x1_S64x3_d1
    concatenates_S2_S1_S3_d0 shapeCasts_S3_S1x3).symm

/-- The weight result is the reference's. -/
theorem weightResult : W13 m ρ c (Proc.devRef .tc main_v79) = val_main_v90 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg10)) (m ((c : Thread nD τ).loc main_arg11)) := by
  show StableHlo.after hostOps7 (W12 m ρ c) (Proc.devRef .tc main_v79) = _
  after_results_simp
  have hw : W12 m ρ c (Proc.devRef .tc main_v78_1) = val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg10)) (m ((c : Thread nD τ).loc main_arg11)) := by
    refine (W12_arr m ρ c 4).trans ((Regions.result6_4 (V11 m ρ) c).trans ?_)
    show Cert.Head.weight (W11 m ρ c (Proc.devRef .tc main_v74)) (W11 m ρ c (Proc.devRef .tc main_v75)) (W11 m ρ c (Proc.devRef .tc main_v77)) = _
    rw [act3' m ρ c, joinedWeights m ρ c, joinedBias m ρ c]
    exact (Cert.ReferenceIdeal.Stages.weightStage (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) concatenates_S64x2_S64x1_S64x3_d1
      concatenates_S2_S1_S3_d0 shapeCasts_S3_S1x3).symm
  rw [hw]
  rfl

end Cert.KernelIdeal.Chain

end
-- ==== Proof.lean ====
/-
  A three-layer graph convolution network with two output heads, as a tiled kernel program and as a whole-array
  reference, compute the same two results on the extended reals.

  Both programs build, from the edge list, the self-looped source and target index arrays and the symmetric per-edge
  normalisation rsqrt(deg[src]) · rsqrt(deg[dst]), by the same host operations. Each layer is
  max(scatter-add over targets of (x·W)[src] · norm, + b, 0). The kernel computes x·W by a launch over five blocks of
  10000 rows (a matrix-unit product into a zero accumulator, after a change of float format that is the identity on
  extended reals) where the reference uses one host product: both are the sum over k of x(i, k) · W(k, q). It computes
  the bias and the rectifier by a second launch over the same blocks, with the bias reshaped to one row, where the
  reference broadcasts the bias vector: both read b(d) at entry (i, d). The gather, scaling and scatter-add between the
  two launches are the reference's own operations. The kernel's output launch multiplies by the side-by-side matrix
  [W_shift | W_weight] and adds the joined bias; its columns 0–1 are the reference's h·W_shift + b_shift and its column 2
  is h·W_weight + b_weight, and both programs apply the same softplus to the latter (two spellings of one function of an
  extended real). No step moves a factor across a sum or cancels anything, so no finiteness of the inputs is used.

  The three frames are the generated ones (the reference's is its generated run with the results dropped). The ideal
  pass rewrote nothing, so there is nothing to preserve. For the value claim the kernel program's run is restated with
  its two result buffers named (KernelRun), each launch's result array is read as one whole-array function of the
  launch's inputs (Region0 … Region6 over Bodies, Head, HeadBody), the segments are walked in order (Carried, Chain), and
  the reference's stages are read as the same functions (RefStages over the generated read-at-an-index module).
-/
import proofs.«179234_j19267223289970_1_alg».proof.Defs
import proofs.«179234_j19267223289970_1_alg».proof.Proof.Gen.Kernel
import proofs.«179234_j19267223289970_1_alg».proof.Proof.Gen.Kernel.Skeleton
import proofs.«179234_j19267223289970_1_alg».proof.Proof.Gen.Kernel.Launch
import proofs.«179234_j19267223289970_1_alg».proof.Proof.Gen.Kernel.Points
import proofs.«179234_j19267223289970_1_alg».proof.Proof.Gen.Kernel.Frame
import proofs.«179234_j19267223289970_1_alg».proof.Proof.Gen.KernelIdeal
import proofs.«179234_j19267223289970_1_alg».proof.Proof.Gen.KernelIdeal.Skeleton
import proofs.«179234_j19267223289970_1_alg».proof.Proof.Gen.KernelIdeal.Launch
import proofs.«179234_j19267223289970_1_alg».proof.Proof.Gen.KernelIdeal.Points
import proofs.«179234_j19267223289970_1_alg».proof.Proof.Gen.KernelIdeal.Frame
import proofs.«179234_j19267223289970_1_alg».proof.Proof.Gen.ReferenceIdeal
import proofs.«179234_j19267223289970_1_alg».proof.Proof.Gen.ReferenceIdeal.Run
import proofs.«179234_j19267223289970_1_alg».proof.Proof.Gen.ReferenceIdeal.Read
import proofs.«179234_j19267223289970_1_alg».proof.Proof.Gen.Pre_finite_inputs
import proofs.«179234_j19267223289970_1_alg».proof.Proof.KernelRun
import proofs.«179234_j19267223289970_1_alg».proof.Proof.Chain
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- The idealized kernel program runs and keeps its arguments. -/
theorem frame_kernelIdeal : Cert.frame_KernelIdeal := fun m ρ _ => Cert.KernelIdeal.Gen.frame m ρ

/-- The reference runs and keeps its arguments: its run, with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories agreeing on the arguments both programs end with the reference's two stage functions of the
    arguments in their result buffers: the kernel program by the walk through its segments, the reference by its run. -/
theorem algebraic : Cert.algebraic_KernelIdeal_ReferenceIdeal := by
  intro m ρ m' ρ' _ hagree
  refine ⟨fun c => Cert.ReferenceIdeal.Read.val_main_v84 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => Cert.ReferenceIdeal.Read.val_main_v90 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.Chain.shiftsResult m ρ c),
        (h c).2.1.trans (Cert.KernelIdeal.Chain.weightResult m ρ c), (h c).2.2⟩)
      (Cert.KernelIdeal.Results.run_values (F := Ideal) m ρ)
  · refine (θ_run Cert.ReferenceIdeal.defs _ _).mono (fun r h c => ?_) (Cert.ReferenceIdeal.Value.run (F := Ideal) m' ρ')
    obtain ⟨e0, e1, e2, e3, e4, e5, e6, e7, e8, e9, e10, e11⟩ := hagree c
    refine ⟨(h c).1.trans ((Cert.ReferenceIdeal.Read.val_main_v84_eq m' c).trans ?_),
      (h c).2.1.trans ((Cert.ReferenceIdeal.Read.val_main_v90_eq m' c).trans ?_), (h c).2.2⟩
    · rw [e0, e1, e2, e3, e4, e5, e6, e7, e8, e9]
    · rw [e0, e1, e2, e3, e4, e5, e6, e7, e10, e11]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
